-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x1 .f32) (main_arg12 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S5000x128 : Shape := ⟨2, ![5000, 128]⟩
abbrev S1700000x128 : Shape := ⟨2, ![1700000, 128]⟩
abbrev S1000x128 : Shape := ⟨2, ![1000, 128]⟩
abbrev S100000x1 : Shape := ⟨2, ![100000, 1]⟩
abbrev S1000 : Shape := ⟨1, ![1000]⟩
abbrev S1000x1 : Shape := ⟨2, ![1000, 1]⟩
abbrev S1x1 : Shape := ⟨2, ![1, 1]⟩

abbrev nBuf : Space → Nat
  | .hbm => 130
  | .vmem => 24
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S100000, .i32⟩
  | 18 => ⟨S1700000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .f32⟩
  | 46 => ⟨S1700000, .f32⟩
  | 47 => ⟨S1700000, .i1⟩
  | 48 => ⟨S1700000, .f32⟩
  | 49 => ⟨S_, .f32⟩
  | 50 => ⟨S1700000, .f32⟩
  | 51 => ⟨S1700000, .f32⟩
  | 52 => ⟨S1x128, .f32⟩
  | 53 => ⟨S100000x128, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x1, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x128, .f32⟩
  | 81 => ⟨S1700000x1, .f32⟩
  | 82 => ⟨S1700000x128, .f32⟩
  | 83 => ⟨S1700000x128, .f32⟩
  | 84 => ⟨S_, .f32⟩
  | 85 => ⟨S100000x128, .f32⟩
  | 86 => ⟨S1700000x1, .i32⟩
  | 87 => ⟨S100000x128, .f32⟩
  | 88 => ⟨S1x128, .f32⟩
  | 89 => ⟨S100000x128, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000x128, .f32⟩
  | 99 => ⟨S1700000x1, .f32⟩
  | 100 => ⟨S1700000x128, .f32⟩
  | 101 => ⟨S1700000x128, .f32⟩
  | 102 => ⟨S_, .f32⟩
  | 103 => ⟨S100000x128, .f32⟩
  | 104 => ⟨S1700000x1, .i32⟩
  | 105 => ⟨S100000x128, .f32⟩
  | 106 => ⟨S_, .f32⟩
  | 107 => ⟨S100000x128, .f32⟩
  | 108 => ⟨S100000x128, .f32⟩
  | 109 => ⟨S_, .f32⟩
  | 110 => ⟨S1000x128, .f32⟩
  | 111 => ⟨S100000x1, .i32⟩
  | 112 => ⟨S1000x128, .f32⟩
  | 113 => ⟨S_, .f32⟩
  | 114 => ⟨S100000, .f32⟩
  | 115 => ⟨S_, .f32⟩
  | 116 => ⟨S1000, .f32⟩
  | 117 => ⟨S100000x1, .i32⟩
  | 118 => ⟨S1000, .f32⟩
  | 119 => ⟨S_, .f32⟩
  | 120 => ⟨S_, .f32⟩
  | 121 => ⟨S1000, .f32⟩
  | 122 => ⟨S1000, .f32⟩
  | 123 => ⟨S1000x1, .f32⟩
  | 124 => ⟨S1000x128, .f32⟩
  | 125 => ⟨S1000x128, .f32⟩
  | 126 => ⟨S1x128, .f32⟩
  | 127 => ⟨S1x1, .f32⟩
  | _ => ⟨S100000x128, .f32⟩

abbrev hbmTy0_1 (i : Nat) : BufTy := match i % 128 with
  | 0 => ⟨S1000x1, .f32⟩
  | 1 => ⟨S1000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1000x128, .f32⟩
  | .local _ .vmem, ⟨19, _⟩ => ⟨S128x128, .f32⟩
  | .local _ .vmem, ⟨20, _⟩ => ⟨S1x128, .f32⟩
  | .local _ .vmem, ⟨21, _⟩ => ⟨S128x1, .f32⟩
  | .local _ .vmem, ⟨22, _⟩ => ⟨S1x1, .f32⟩
  | .local _ .vmem, ⟨23, _⟩ => ⟨S1000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_call1_cst : Ref sig .tc := ⟨.hbm, 106, rfl⟩
abbrev main_call1_v0 : Ref sig .tc := ⟨.hbm, 107, rfl⟩
abbrev main_v76 : Ref sig .tc := ⟨.hbm, 108, rfl⟩
abbrev main_cst_15 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_16 : Ref sig .tc := ⟨.hbm, 113, rfl⟩
abbrev main_v80 : Ref sig .tc := ⟨.hbm, 114, rfl⟩
abbrev main_cst_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_call2_v0 : Ref sig .tc := ⟨.hbm, 120, rfl⟩
abbrev main_call2_v1 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1000x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  shapeCasts_S1_S1x1 : S1.ShapeCasts S1x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  shapeCasts_S1000x1_S1000 : S1000x1.ShapeCasts S1000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S1000x128_S100000x1_S100000x128_1_0_0_1_wf : ScatterDims.WF S1000x128 S100000x1 S100000x128 [1] [0] [0] 1
  scatter_S1000_S100000x1_S100000_n_0_0_1_wf : ScatterDims.WF S1000 S100000x1 S100000 [] [0] [0] 1
  dot_S1000x128_S128x128_S1000x128_1_0_0_1_n_n_wf : DotDims.WF S1000x128 S128x128 S1000x128 [1] [0] [0] [1] [] []
  dot_S1000x128_S128x1_S1000x1_1_0_0_1_n_n_wf : DotDims.WF S1000x128 S128x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S1000x128.size a
  hwx3_0 : ∀ i : grid3.Coords, EltTy.bits .f32 = 32 ∨ (Rect.block (s := S1000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x1.size a ≤ S128x1.size a
  hwx3_3 : ∀ i : grid3.Coords, EltTy.bits .f32 = 32 ∨ (Rect.block (s := S128x1) S128x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1000x1.size a ≤ S1000x1.size a
  hwx3_5 : ∀ i : grid3.Coords, EltTy.bits .f32 = 32 ∨ (Rect.block (s := S1000x1) S1000x1.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v87) S1000x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v90) S1000x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1700000x128 : Shape := ⟨2, ![1700000, 128]⟩
abbrev S1000x128 : Shape := ⟨2, ![1000, 128]⟩
abbrev S100000x1 : Shape := ⟨2, ![100000, 1]⟩
abbrev S1000 : Shape := ⟨1, ![1000]⟩
abbrev S1000x1 : Shape := ⟨2, ![1000, 1]⟩
abbrev S1x1 : Shape := ⟨2, ![1, 1]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S100000, .i32⟩
  | 18 => ⟨S1700000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .f32⟩
  | 46 => ⟨S1700000, .f32⟩
  | 47 => ⟨S1700000, .i1⟩
  | 48 => ⟨S1700000, .f32⟩
  | 49 => ⟨S_, .f32⟩
  | 50 => ⟨S1700000, .f32⟩
  | 51 => ⟨S1700000, .f32⟩
  | 52 => ⟨S100000x128, .f32⟩
  | 53 => ⟨S1x128, .f32⟩
  | 54 => ⟨S100000x128, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x128, .f32⟩
  | 88 => ⟨S1700000x1, .f32⟩
  | 89 => ⟨S1700000x128, .f32⟩
  | 90 => ⟨S1700000x128, .f32⟩
  | 91 => ⟨S_, .f32⟩
  | 92 => ⟨S100000x128, .f32⟩
  | 93 => ⟨S1700000x1, .i32⟩
  | 94 => ⟨S100000x128, .f32⟩
  | 95 => ⟨S_, .f32⟩
  | 96 => ⟨S100000x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x128, .f32⟩
  | 111 => ⟨S1700000x1, .f32⟩
  | 112 => ⟨S1700000x128, .f32⟩
  | 113 => ⟨S1700000x128, .f32⟩
  | 114 => ⟨S_, .f32⟩
  | 115 => ⟨S100000x128, .f32⟩
  | 116 => ⟨S1700000x1, .i32⟩
  | 117 => ⟨S100000x128, .f32⟩
  | 118 => ⟨S_, .f32⟩
  | 119 => ⟨S100000x128, .f32⟩
  | 120 => ⟨S100000x128, .f32⟩
  | 121 => ⟨S_, .f32⟩
  | 122 => ⟨S1000x128, .f32⟩
  | 123 => ⟨S100000x1, .i32⟩
  | 124 => ⟨S1000x128, .f32⟩
  | 125 => ⟨S_, .f32⟩
  | 126 => ⟨S100000, .f32⟩
  | 127 => ⟨S_, .f32⟩
  | _ => ⟨S100000x128, .f32⟩

abbrev hbmTy0_1 (i : Nat) : BufTy := match i % 128 with
  | 0 => ⟨S1000, .f32⟩
  | 1 => ⟨S100000x1, .i32⟩
  | 2 => ⟨S1000, .f32⟩
  | 3 => ⟨S_, .f32⟩
  | 4 => ⟨S_, .f32⟩
  | 5 => ⟨S1000, .f32⟩
  | 6 => ⟨S1000, .f32⟩
  | 7 => ⟨S1000x1, .f32⟩
  | 8 => ⟨S1000x128, .f32⟩
  | 9 => ⟨S1000x128, .f32⟩
  | 10 => ⟨S1000x128, .f32⟩
  | 11 => ⟨S1x128, .f32⟩
  | 12 => ⟨S1000x128, .f32⟩
  | 13 => ⟨S1000x128, .f32⟩
  | 14 => ⟨S_, .f32⟩
  | 15 => ⟨S1000x128, .f32⟩
  | 16 => ⟨S1000x128, .f32⟩
  | 17 => ⟨S1000x1, .f32⟩
  | 18 => ⟨S1x1, .f32⟩
  | 19 => ⟨S1000x1, .f32⟩
  | 20 => ⟨S1000x1, .f32⟩
  | 21 => ⟨S1000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call1_cst : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_c_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call2_cst : Ref sig .tc := ⟨.hbm, 95, rfl⟩
abbrev main_call2_v0 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_12 : Ref sig .tc := ⟨.hbm, 102, rfl⟩
abbrev main_v71 : Ref sig .tc := ⟨.hbm, 103, rfl⟩
abbrev main_v72 : Ref sig .tc := ⟨.hbm, 104, rfl⟩
abbrev main_c_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call3_cst : Ref sig .tc := ⟨.hbm, 118, rfl⟩
abbrev main_call3_v0 : Ref sig .tc := ⟨.hbm, 119, rfl⟩
abbrev main_v84 : Ref sig .tc := ⟨.hbm, 120, rfl⟩
abbrev main_cst_15 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_16 : Ref sig .tc := ⟨.hbm, 125, rfl⟩
abbrev main_v88 : Ref sig .tc := ⟨.hbm, 126, rfl⟩
abbrev main_cst_17 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_18 : Ref sig .tc := ⟨.hbm, 131, rfl⟩
abbrev main_call4_v0 : Ref sig .tc := ⟨.hbm, 132, rfl⟩
abbrev main_call4_v1 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_call5_cst : Ref sig .tc := ⟨.hbm, 142, rfl⟩
abbrev main_call5_v0 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S1x128_S1000x128_0_1 : S1x128.BroadcastsInDim S1000x128 (![0, 1] : Fin 2 → Fin S1000x128.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  shapeCasts_S1000x1_S1000 : S1000x1.ShapeCasts S1000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S1000x128_S100000x1_S100000x128_1_0_0_1_wf : ScatterDims.WF S1000x128 S100000x1 S100000x128 [1] [0] [0] 1
  scatter_S1000_S100000x1_S100000_n_0_0_1_wf : ScatterDims.WF S1000 S100000x1 S100000 [] [0] [0] 1
  dot_S1000x128_S128x128_S1000x128_1_0_0_1_n_n_wf : DotDims.WF S1000x128 S128x128 S1000x128 [1] [0] [0] [1] [] []
  dot_S1000x128_S128x1_S1000x1_1_0_0_1_n_n_wf : DotDims.WF S1000x128 S128x1 S1000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

class Facts : Prop extends Facts₀ where

variable [Facts]
-- ==== Proof.RefOps.lean ====
/-
  The reference program as a straight line of host operations.

  The reference computes, on the host alone: the two edge lists with a self-loop appended for every node, each node's
  degree, the symmetric normalisation of every edge, three rounds of (linear map, gather along the sources, scale by the
  normalisation, scatter-add at the targets, rectification), the mean of the node features over each graph, and a two-layer
  head.  Its @main is a sequence of 137 operations (the bodies of the small functions it calls standing at their call
  sites); every weakly fair execution runs them in order and terminates, and each buffer then holds the fold of the
  operations' results over the launch contents.
-/
import proofs.«171263_j67095979098760_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_c (constantI S_ 32 0#32),
    unary main_c main_v11 (broadcastInDim S1700000 ![] bcast_S_S1700000 : (⟨S_, .i32⟩ : BufTy).Contents (Elt F) → (⟨S1700000, .i32⟩ : BufTy).Contents (Elt F)),
    binary main_v5 main_v11 main_v12 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v13 (broadcastInDim S1700000 ![] bcast_S_S1700000 : (⟨S_, .i32⟩ : BufTy).Contents (Elt F) → (⟨S1700000, .i32⟩ : BufTy).Contents (Elt F)),
    binary main_v5 main_v13 main_v14 (addi : (⟨S1700000, .i32⟩ : BufTy).Contents (Elt F) → (⟨S1700000, .i32⟩ : BufTy).Contents (Elt F) → (⟨S1700000, .i32⟩ : BufTy).Contents (Elt F)),
    ternary main_v12 main_v14 main_v5 main_v15 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v15 main_v16 (broadcastInDim S1700000x1 ![0] bcast_S1700000_S1700000x1_0 : (⟨S1700000, .i32⟩ : BufTy).Contents (Elt F) → (⟨S1700000x1, .i32⟩ : BufTy).Contents (Elt F)),
    binary main_v10 main_v16 main_v17 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_2 (constantI S_ 32 0#32),
    unary main_c_2 main_v18 (broadcastInDim S1700000 ![] bcast_S_S1700000 : (⟨S_, .i32⟩ : BufTy).Contents (Elt F) → (⟨S1700000, .i32⟩ : BufTy).Contents (Elt F)),
    binary main_v6 main_v18 main_v19 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v20 (broadcastInDim S1700000 ![] bcast_S_S1700000 : (⟨S_, .i32⟩ : BufTy).Contents (Elt F) → (⟨S1700000, .i32⟩ : BufTy).Contents (Elt F)),
    binary main_v6 main_v20 main_v21 (addi : (⟨S1700000, .i32⟩ : BufTy).Contents (Elt F) → (⟨S1700000, .i32⟩ : BufTy).Contents (Elt F) → (⟨S1700000, .i32⟩ : BufTy).Contents (Elt F)),
    ternary main_v19 main_v21 main_v6 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v22 main_v23 (broadcastInDim S1700000x1 ![0] bcast_S1700000_S1700000x1_0 : (⟨S1700000, .i32⟩ : BufTy).Contents (Elt F) → (⟨S1700000x1, .i32⟩ : BufTy).Contents (Elt F)),
    binary main_v10 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v17 main_v24 main_v25 (mulf : (⟨S1700000, .f32⟩ : BufTy).Contents (Elt F) → (⟨S1700000, .f32⟩ : BufTy).Contents (Elt F) → (⟨S1700000, .f32⟩ : BufTy).Contents (Elt F)),
    nullary main_cst_4 (constant S_ .f32 0x00000000#32),
    unary main_cst_4 main_v26 (broadcastInDim S1700000 ![] bcast_S_S1700000 : (⟨S_, .f32⟩ : BufTy).Contents (Elt F) → (⟨S1700000, .f32⟩ : BufTy).Contents (Elt F)),
    binary main_v25 main_v26 main_v27 (cmpf .ogt : (⟨S1700000, .f32⟩ : BufTy).Contents (Elt F) → (⟨S1700000, .f32⟩ : BufTy).Contents (Elt F) → (⟨S1700000, .i1⟩ : BufTy).Contents (Elt F)),
    unary main_v25 main_v28 (Host.rsqrt : (⟨S1700000, .f32⟩ : BufTy).Contents (Elt F) → (⟨S1700000, .f32⟩ : BufTy).Contents (Elt F)),
    nullary main_cst_5 (constant S_ .f32 0x00000000#32),
    unary main_cst_5 main_v29 (broadcastInDim S1700000 ![] bcast_S_S1700000 : (⟨S_, .f32⟩ : BufTy).Contents (Elt F) → (⟨S1700000, .f32⟩ : BufTy).Contents (Elt F)),
    TRef.ternary (TRef.of (T := ⟨S1700000, .i1⟩) main_v27) (TRef.of (T := ⟨S1700000, .f32⟩) main_v28) (TRef.of (T := ⟨S1700000, .f32⟩) main_v29) (TRef.of (T := ⟨S1700000, .f32⟩) main_v30) select,
    binary main_arg0 main_arg3 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v31 main_v33 main_v34 (addf : (⟨S100000x128, .f32⟩ : BufTy).Contents (Elt F) → (⟨S100000x128, .f32⟩ : BufTy).Contents (Elt F) → (⟨S100000x128, .f32⟩ : BufTy).Contents (Elt F)),
    nullary main_c_6 (constantI S_ 32 0#32),
    unary main_c_6 main_v35 (broadcastInDim S1700000 ![] bcast_S_S1700000 : (⟨S_, .i32⟩ : BufTy).Contents (Elt F) → (⟨S1700000, .i32⟩ : BufTy).Contents (Elt F)),
    binary main_v5 main_v35 main_v36 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v37 (broadcastInDim S1700000 ![] bcast_S_S1700000 : (⟨S_, .i32⟩ : BufTy).Contents (Elt F) → (⟨S1700000, .i32⟩ : BufTy).Contents (Elt F)),
    binary main_v5 main_v37 main_v38 (addi : (⟨S1700000, .i32⟩ : BufTy).Contents (Elt F) → (⟨S1700000, .i32⟩ : BufTy).Contents (Elt F) → (⟨S1700000, .i32⟩ : BufTy).Contents (Elt F)),
    ternary main_v36 main_v38 main_v5 main_v39 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v39 main_v40 (broadcastInDim S1700000x1 ![0] bcast_S1700000_S1700000x1_0 : (⟨S1700000, .i32⟩ : BufTy).Contents (Elt F) → (⟨S1700000x1, .i32⟩ : BufTy).Contents (Elt F)),
    binary main_v34 main_v40 main_v41 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v42 (broadcastInDim S1700000x1 ![0] bcast_S1700000_S1700000x1_0 : (⟨S1700000, .f32⟩ : BufTy).Contents (Elt F) → (⟨S1700000x1, .f32⟩ : BufTy).Contents (Elt F)),
    unary main_v42 main_v43 (broadcastInDim S1700000x128 ![0, 1] bcast_S1700000x1_S1700000x128_0_1 : (⟨S1700000x1, .f32⟩ : BufTy).Contents (Elt F) → (⟨S1700000x128, .f32⟩ : BufTy).Contents (Elt F)),
    binary main_v41 main_v43 main_v44 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v45 (broadcastInDim S100000x128 ![] bcast_S_S100000x128 : (⟨S_, .f32⟩ : BufTy).Contents (Elt F) → (⟨S100000x128, .f32⟩ : BufTy).Contents (Elt F)),
    unary main_v6 main_v46 (broadcastInDim S1700000x1 ![0] bcast_S1700000_S1700000x1_0 : (⟨S1700000, .i32⟩ : BufTy).Contents (Elt F) → (⟨S1700000x1, .i32⟩ : BufTy).Contents (Elt F)),
    ternary main_v45 main_v46 main_v44 main_v47 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v47) (TRef.of (T := ⟨S100000x128, .f32⟩) main_call1_v0) (TRef.of (T := ⟨S100000x128, .f32⟩) main_v48) maximumf,
    binary main_v48 main_arg5 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v49 main_v51 main_v52 (addf : (⟨S100000x128, .f32⟩ : BufTy).Contents (Elt F) → (⟨S100000x128, .f32⟩ : BufTy).Contents (Elt F) → (⟨S100000x128, .f32⟩ : BufTy).Contents (Elt F)),
    nullary main_c_9 (constantI S_ 32 0#32),
    unary main_c_9 main_v53 (broadcastInDim S1700000 ![] bcast_S_S1700000 : (⟨S_, .i32⟩ : BufTy).Contents (Elt F) → (⟨S1700000, .i32⟩ : BufTy).Contents (Elt F)),
    binary main_v5 main_v53 main_v54 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v55 (broadcastInDim S1700000 ![] bcast_S_S1700000 : (⟨S_, .i32⟩ : BufTy).Contents (Elt F) → (⟨S1700000, .i32⟩ : BufTy).Contents (Elt F)),
    binary main_v5 main_v55 main_v56 (addi : (⟨S1700000, .i32⟩ : BufTy).Contents (Elt F) → (⟨S1700000, .i32⟩ : BufTy).Contents (Elt F) → (⟨S1700000, .i32⟩ : BufTy).Contents (Elt F)),
    ternary main_v54 main_v56 main_v5 main_v57 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v57 main_v58 (broadcastInDim S1700000x1 ![0] bcast_S1700000_S1700000x1_0 : (⟨S1700000, .i32⟩ : BufTy).Contents (Elt F) → (⟨S1700000x1, .i32⟩ : BufTy).Contents (Elt F)),
    binary main_v52 main_v58 main_v59 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v60 (broadcastInDim S1700000x1 ![0] bcast_S1700000_S1700000x1_0 : (⟨S1700000, .f32⟩ : BufTy).Contents (Elt F) → (⟨S1700000x1, .f32⟩ : BufTy).Contents (Elt F)),
    unary main_v60 main_v61 (broadcastInDim S1700000x128 ![0, 1] bcast_S1700000x1_S1700000x128_0_1 : (⟨S1700000x1, .f32⟩ : BufTy).Contents (Elt F) → (⟨S1700000x128, .f32⟩ : BufTy).Contents (Elt F)),
    binary main_v59 main_v61 main_v62 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v63 (broadcastInDim S100000x128 ![] bcast_S_S100000x128 : (⟨S_, .f32⟩ : BufTy).Contents (Elt F) → (⟨S100000x128, .f32⟩ : BufTy).Contents (Elt F)),
    unary main_v6 main_v64 (broadcastInDim S1700000x1 ![0] bcast_S1700000_S1700000x1_0 : (⟨S1700000, .i32⟩ : BufTy).Contents (Elt F) → (⟨S1700000x1, .i32⟩ : BufTy).Contents (Elt F)),
    ternary main_v63 main_v64 main_v62 main_v65 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v65) (TRef.of (T := ⟨S100000x128, .f32⟩) main_call2_v0) (TRef.of (T := ⟨S100000x128, .f32⟩) main_v66) maximumf,
    binary main_v66 main_arg7 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v67 main_v69 main_v70 (addf : (⟨S100000x128, .f32⟩ : BufTy).Contents (Elt F) → (⟨S100000x128, .f32⟩ : BufTy).Contents (Elt F) → (⟨S100000x128, .f32⟩ : BufTy).Contents (Elt F)),
    nullary main_c_12 (constantI S_ 32 0#32),
    unary main_c_12 main_v71 (broadcastInDim S1700000 ![] bcast_S_S1700000 : (⟨S_, .i32⟩ : BufTy).Contents (Elt F) → (⟨S1700000, .i32⟩ : BufTy).Contents (Elt F)),
    binary main_v5 main_v71 main_v72 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v73 (broadcastInDim S1700000 ![] bcast_S_S1700000 : (⟨S_, .i32⟩ : BufTy).Contents (Elt F) → (⟨S1700000, .i32⟩ : BufTy).Contents (Elt F)),
    binary main_v5 main_v73 main_v74 (addi : (⟨S1700000, .i32⟩ : BufTy).Contents (Elt F) → (⟨S1700000, .i32⟩ : BufTy).Contents (Elt F) → (⟨S1700000, .i32⟩ : BufTy).Contents (Elt F)),
    ternary main_v72 main_v74 main_v5 main_v75 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v75 main_v76 (broadcastInDim S1700000x1 ![0] bcast_S1700000_S1700000x1_0 : (⟨S1700000, .i32⟩ : BufTy).Contents (Elt F) → (⟨S1700000x1, .i32⟩ : BufTy).Contents (Elt F)),
    binary main_v70 main_v76 main_v77 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v78 (broadcastInDim S1700000x1 ![0] bcast_S1700000_S1700000x1_0 : (⟨S1700000, .f32⟩ : BufTy).Contents (Elt F) → (⟨S1700000x1, .f32⟩ : BufTy).Contents (Elt F)),
    unary main_v78 main_v79 (broadcastInDim S1700000x128 ![0, 1] bcast_S1700000x1_S1700000x128_0_1 : (⟨S1700000x1, .f32⟩ : BufTy).Contents (Elt F) → (⟨S1700000x128, .f32⟩ : BufTy).Contents (Elt F)),
    binary main_v77 main_v79 main_v80 (mulf : (⟨S1700000x128, .f32⟩ : BufTy).Contents (Elt F) → (⟨S1700000x128, .f32⟩ : BufTy).Contents (Elt F) → (⟨S1700000x128, .f32⟩ : BufTy).Contents (Elt F)),
    nullary main_cst_14 (constant S_ .f32 0x00000000#32),
    unary main_cst_14 main_v81 (broadcastInDim S100000x128 ![] bcast_S_S100000x128 : (⟨S_, .f32⟩ : BufTy).Contents (Elt F) → (⟨S100000x128, .f32⟩ : BufTy).Contents (Elt F)),
    unary main_v6 main_v82 (broadcastInDim S1700000x1 ![0] bcast_S1700000_S1700000x1_0 : (⟨S1700000, .i32⟩ : BufTy).Contents (Elt F) → (⟨S1700000x1, .i32⟩ : BufTy).Contents (Elt F)),
    ternary main_v81 main_v82 main_v80 main_v83 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v83) (TRef.of (T := ⟨S100000x128, .f32⟩) main_call3_v0) (TRef.of (T := ⟨S100000x128, .f32⟩) main_v84) maximumf,
    nullary main_cst_15 (constant S_ .f32 0x00000000#32),
    unary main_cst_15 main_v85 (broadcastInDim S1000x128 ![] bcast_S_S1000x128 : (⟨S_, .f32⟩ : BufTy).Contents (Elt F) → (⟨S1000x128, .f32⟩ : BufTy).Contents (Elt F)),
    unary main_arg2 main_v86 (broadcastInDim S100000x1 ![0] bcast_S100000_S100000x1_0 : (⟨S100000, .i32⟩ : BufTy).Contents (Elt F) → (⟨S100000x1, .i32⟩ : BufTy).Contents (Elt F)),
    ternary main_v85 main_v86 main_v84 main_v87 ((fun x i u => Host.scatterAdd scatter_S1000x128_S100000x1_S100000x128_1_0_0_1 x i u) : (⟨S1000x128, .f32⟩ : BufTy).Contents (Elt F) → (⟨S100000x1, .i32⟩ : BufTy).Contents (Elt F) → (⟨S100000x128, .f32⟩ : BufTy).Contents (Elt F) → (⟨S1000x128, .f32⟩ : BufTy).Contents (Elt F)),
    nullary main_cst_16 (constant S_ .f32 0x3F800000#32),
    unary main_cst_16 main_v88 (broadcastInDim S100000 ![] bcast_S_S100000 : (⟨S_, .f32⟩ : BufTy).Contents (Elt F) → (⟨S100000, .f32⟩ : BufTy).Contents (Elt F)),
    nullary main_cst_17 (constant S_ .f32 0x00000000#32),
    unary main_cst_17 main_v89 (broadcastInDim S1000 ![] bcast_S_S1000 : (⟨S_, .f32⟩ : BufTy).Contents (Elt F) → (⟨S1000, .f32⟩ : BufTy).Contents (Elt F)),
    unary main_arg2 main_v90 (broadcastInDim S100000x1 ![0] bcast_S100000_S100000x1_0 : (⟨S100000, .i32⟩ : BufTy).Contents (Elt F) → (⟨S100000x1, .i32⟩ : BufTy).Contents (Elt F)),
    ternary main_v89 main_v90 main_v88 main_v91 ((fun x i u => Host.scatterAdd scatter_S1000_S100000x1_S100000_n_0_0_1 x i u) : (⟨S1000, .f32⟩ : BufTy).Contents (Elt F) → (⟨S100000x1, .i32⟩ : BufTy).Contents (Elt F) → (⟨S100000, .f32⟩ : BufTy).Contents (Elt F) → (⟨S1000, .f32⟩ : BufTy).Contents (Elt F)),
    nullary main_cst_18 (constant S_ .f32 0x3F800000#32),
    TRef.unary (TRef.of (T := ⟨S_, .f32⟩) main_cst_18) (TRef.of (T := ⟨S_, .f32⟩) main_call4_v0) id,
    TRef.unary (TRef.of (T := ⟨S_, .f32⟩) main_call4_v0) (TRef.of (T := ⟨S1000, .f32⟩) main_call4_v1) (broadcastInDim S1000 ![] bcast_S_S1000),
    TRef.binary (TRef.of (T := ⟨S1000, .f32⟩) main_call4_v1) (TRef.of (T := ⟨S1000, .f32⟩) main_v91) (TRef.of (T := ⟨S1000, .f32⟩) main_v92) maximumf,
    unary main_v92 main_v93 (broadcastInDim S1000x1 ![0] bcast_S1000_S1000x1_0 : (⟨S1000, .f32⟩ : BufTy).Contents (Elt F) → (⟨S1000x1, .f32⟩ : BufTy).Contents (Elt F)),
    unary main_v93 main_v94 (broadcastInDim S1000x128 ![0, 1] bcast_S1000x1_S1000x128_0_1 : (⟨S1000x1, .f32⟩ : BufTy).Contents (Elt F) → (⟨S1000x128, .f32⟩ : BufTy).Contents (Elt F)),
    binary main_v87 main_v94 main_v95 (Host.divf : (⟨S1000x128, .f32⟩ : BufTy).Contents (Elt F) → (⟨S1000x128, .f32⟩ : BufTy).Contents (Elt F) → (⟨S1000x128, .f32⟩ : BufTy).Contents (Elt F)),
    binary main_v95 main_arg9 main_v96 ((fun l r => Host.dotGeneral dot_S1000x128_S128x128_S1000x128_1_0_0_1_n_n none l r) : (⟨S1000x128, .f32⟩ : BufTy).Contents (Elt F) → (⟨S128x128, .f32⟩ : BufTy).Contents (Elt F) → (⟨S1000x128, .f32⟩ : BufTy).Contents (Elt F)),
    unary main_arg10 main_v97 (broadcastInDim S1x128 ![1] bcast_S128_S1x128_1 : (⟨S128, .f32⟩ : BufTy).Contents (Elt F) → (⟨S1x128, .f32⟩ : BufTy).Contents (Elt F)),
    unary main_v97 main_v98 (broadcastInDim S1000x128 ![0, 1] bcast_S1x128_S1000x128_0_1 : (⟨S1x128, .f32⟩ : BufTy).Contents (Elt F) → (⟨S1000x128, .f32⟩ : BufTy).Contents (Elt F)),
    binary main_v96 main_v98 main_v99 (addf : (⟨S1000x128, .f32⟩ : BufTy).Contents (Elt F) → (⟨S1000x128, .f32⟩ : BufTy).Contents (Elt F) → (⟨S1000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1000x128, .f32⟩) main_call5_v0) (broadcastInDim S1000x128 ![] bcast_S_S1000x128),
    TRef.binary (TRef.of (T := ⟨S1000x128, .f32⟩) main_v99) (TRef.of (T := ⟨S1000x128, .f32⟩) main_call5_v0) (TRef.of (T := ⟨S1000x128, .f32⟩) main_v100) maximumf,
    binary main_v100 main_arg11 main_v101 ((fun l r => Host.dotGeneral dot_S1000x128_S128x1_S1000x1_1_0_0_1_n_n none l r) : (⟨S1000x128, .f32⟩ : BufTy).Contents (Elt F) → (⟨S128x1, .f32⟩ : BufTy).Contents (Elt F) → (⟨S1000x1, .f32⟩ : BufTy).Contents (Elt F)),
    unary main_arg12 main_v102 (broadcastInDim S1x1 ![1] bcast_S1_S1x1_1 : (⟨S1, .f32⟩ : BufTy).Contents (Elt F) → (⟨S1x1, .f32⟩ : BufTy).Contents (Elt F)),
    unary main_v102 main_v103 (broadcastInDim S1000x1 ![0, 1] bcast_S1x1_S1000x1_0_1 : (⟨S1x1, .f32⟩ : BufTy).Contents (Elt F) → (⟨S1000x1, .f32⟩ : BufTy).Contents (Elt F)),
    binary main_v101 main_v103 main_v104 (addf : (⟨S1000x1, .f32⟩ : BufTy).Contents (Elt F) → (⟨S1000x1, .f32⟩ : BufTy).Contents (Elt F) → (⟨S1000x1, .f32⟩ : BufTy).Contents (Elt F)),
    reshape main_v104 main_v105 rfl shapeCasts_S1000x1_S1000 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub .., nullary_bufs_sub .., unary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

/-- Every weakly fair execution of the reference terminates, and every buffer ends at the fold of the operations over
    the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (Proc.devRef .tc b) :=
  run_seq scopedRefs_eq scopedSems_eq defs main (fun _ => ops) main_eq (fun _ => ops_sub) m ρ

end Cert.ReferenceIdeal.Line

end
-- ==== Proof.LibConcat2.lean ====
/-
  Reading what a buffer holds after a line of host operations.

  A line of host operations is a fold: each operation overwrites its result buffer with its function of its operand
  buffers.  What a buffer holds afterwards is therefore a nest of those functions over the contents the line started
  from, and one rewriting pass computes it: at an operation's own result buffer the fold gives the function's value, at
  any other buffer what was there before.

  One operation stops such a pass: a concatenation takes its operands as a LIST of (shape, array) pairs, and a rewriting
  pass does not enter that list.  For two operands we give the concatenation a form with the operands as plain
  arguments; the pass folds a concatenation into this form as soon as it meets one and then continues inside the two
  operands.
-/
import Idealize.ShloMosaic.Lib.StableHlo.Run

namespace Cert.HostLine

open Idealize.ShloMosaic Idealize.ShloMosaic.StableHlo

/-- The concatenation of two arrays along an axis, the two arrays as plain arguments. -/
def concat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- A concatenation of two operands is `concat2` of them. -/
theorem concat2_fold {α : Type} (t : Shape) (a : Fin t.rank) (s1 s2 : Shape) (h : Shape.Concatenates [s1, s2] t a)
    (x : s1.Idx → α) (y : s2.Idx → α) :
    concatenate t a [⟨s1, x⟩, ⟨s2, y⟩] h = concat2 t a s1 s2 h x y := rfl

/-- Computes `after ops V b` for a literal line `ops`, as the operations' functions nested over `V` at the buffers the
    line reads but does not write; two-operand concatenations come out as `concat2`. -/
macro "host_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_fold]))

end Cert.HostLine
-- ==== Proof.Spec.lean ====
/-
  The function both programs compute, as one term over the argument arrays.

  Nodes 0 … 99999 carry 128 features; `e` is the 2 × 1600000 array of edges (row 0 the sources, row 1 the targets), `bt` gives
  each node's graph (1000 graphs).  With a self-loop appended for every node the edge lists are `srcs e` and `tgts e` (1700000
  entries each).  A node's degree is the number of edges that end at it; an edge's weight is 1 / sqrt (deg source · deg target)
  where that product is positive and 0 elsewhere.  One round of message passing sends a node feature matrix `h` to the matrix
  whose row `v` is the sum, over the edges ending at `v`, of the weight times row (source) of `h`.  The network is

      round (x · W0 + b0),  round (relu(·) · W1 + b1),  round (relu(·) · W2 + b2),  relu,

  followed by the mean of the rows of each graph (the sum divided by the graph's size, at least 1), and a two-layer head
  `relu (p · Wp1 + bp1) · Wp2 + bp2`, one number per graph.

  Every piece below is written with the host's own operations, so that the reference's straight line IS this term; the
  three linear maps and the head are the only pieces the kernel computes differently (in blocks of rows, on the
  TensorCore), and they are separate definitions for that reason.
-/
import proofs.«171263_j67095979098760_1_alg».proof.Proof.Gen.ReferenceIdeal
import proofs.«171263_j67095979098760_1_alg».proof.Proof.LibConcat2

noncomputable section

namespace Cert.Spec

open Cert.ReferenceIdeal Cert.ReferenceIdeal.Facts₀ Cert.ReferenceIdeal.Facts Idealize.ShloMosaic Idealize.ShloMosaic.TcCoe Cert.HostLine

variable {F : FTy → Type} [FloatOps F]

/-- Arrays of a shape and element type. -/
abbrev Arr (s : Shape) (e : EltTy) : Type := (⟨s, e⟩ : BufTy).Contents (Elt F)

/-- Row `r` of the edge array followed by the self-loops 0, 1, …, 99999. -/
def srcs (e : Arr (F := F) S2x1600000 .i32) : Arr (F := F) S1700000 .i32 :=
  concat2 S1700000 0 S1600000 S100000 concatenates_S1600000_S100000_S1700000_d0
    (shapeCast S1600000 (extractStridedSlice S1x1600000 ![0, 0] e slices_S2x1600000_S1x1600000_0_0) shapeCasts_S1x1600000_S1600000)
    (iotaInDim S100000 32 0 : Arr (F := F) S100000 .i32)

@[inherit_doc srcs]
def tgts (e : Arr (F := F) S2x1600000 .i32) : Arr (F := F) S1700000 .i32 :=
  concat2 S1700000 0 S1600000 S100000 concatenates_S1600000_S100000_S1700000_d0
    (shapeCast S1600000 (extractStridedSlice S1x1600000 ![1, 0] e slices_S2x1600000_S1x1600000_1_0) shapeCasts_S1x1600000_S1600000)
    (iotaInDim S100000 32 0 : Arr (F := F) S100000 .i32)

/-- A list of node numbers as gather indices: a negative entry counts from the end. -/
def wrapIdx (i : Arr (F := F) S1700000 .i32) : Arr (F := F) S1700000x1 .i32 :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- The number of edges ending at each node. -/
def degree (d : Arr (F := F) S1700000 .i32) : Arr (F := F) S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- Per edge: degree of the source times degree of the target. -/
def degProd (s d : Arr (F := F) S1700000 .i32) : Arr (F := F) S1700000 .f32 :=
  mulf (Host.gather gather_S100000_S1700000x1_S1700000_n_0_n_n_0_1_1 (degree d) (wrapIdx s))
    (Host.gather gather_S100000_S1700000x1_S1700000_n_0_n_n_0_1_1 (degree d) (wrapIdx d))

/-- Per edge: 1 / sqrt of that product where it is positive, 0 elsewhere. -/
def edgeWeight (s d : Arr (F := F) S1700000 .i32) : Arr (F := F) S1700000 .f32 :=
  select (cmpf .ogt (degProd s d) (broadcastInDim S1700000 ![] bcast_S_S1700000 (constant S_ .f32 0x00000000#32)))
    (Host.rsqrt (degProd s d))
    (broadcastInDim S1700000 ![] bcast_S_S1700000 (constant S_ .f32 0x00000000#32))

/-- One round of message passing: row `v` of the result is the sum over the edges ending at `v` of weight × row (source) of `h`. -/
def round (s d : Arr (F := F) S1700000 .i32) (w : Arr (F := F) S1700000 .f32) (h : Arr (F := F) S100000x128 .f32) :
    Arr (F := F) S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (mulf (Host.gather gather_S100000x128_S1700000x1_S1700000x128_1_0_n_n_0_1_1128 h (wrapIdx s))
      (broadcastInDim S1700000x128 ![0, 1] bcast_S1700000x1_S1700000x128_0_1
        (broadcastInDim S1700000x1 ![0] bcast_S1700000_S1700000x1_0 w)))

/-- `x · W` plus the row `B` added to every row. -/
def linearRow (x : Arr (F := F) S100000x128 .f32) (W : Arr (F := F) S128x128 .f32) (B : Arr (F := F) S1x128 .f32) :
    Arr (F := F) S100000x128 .f32 :=
  addf (Host.dotGeneral dot_S100000x128_S128x128_S100000x128_1_0_0_1_n_n none x W)
    (broadcastInDim S100000x128 ![0, 1] bcast_S1x128_S100000x128_0_1 B)

/-- `x · W + b`. -/
def linear (x : Arr (F := F) S100000x128 .f32) (W : Arr (F := F) S128x128 .f32) (b : Arr (F := F) S128 .f32) :
    Arr (F := F) S100000x128 .f32 :=
  linearRow x W (broadcastInDim S1x128 ![1] bcast_S128_S1x128_1 b)

/-- The rectification of a node feature matrix. -/
def relu (x : Arr (F := F) S100000x128 .f32) : Arr (F := F) S100000x128 .f32 :=
  maximumf x (broadcastInDim S100000x128 ![] bcast_S_S100000x128 (constant S_ .f32 0x00000000#32))

/-- The size of each graph, at least 1. -/
def graphSize (bt : Arr (F := F) S100000 .i32) : Arr (F := F) S1000 .f32 :=
  maximumf (broadcastInDim S1000 ![] bcast_S_S1000 (constant S_ .f32 0x3F800000#32))
    (Host.scatterAdd scatter_S1000_S100000x1_S100000_n_0_0_1
      (broadcastInDim S1000 ![] bcast_S_S1000 (constant S_ .f32 0x00000000#32))
      (broadcastInDim S100000x1 ![0] bcast_S100000_S100000x1_0 bt)
      (broadcastInDim S100000 ![] bcast_S_S100000 (constant S_ .f32 0x3F800000#32)))

/-- The mean of the node features over each graph. -/
def pool (bt : Arr (F := F) S100000 .i32) (x : Arr (F := F) S100000x128 .f32) : Arr (F := F) S1000x128 .f32 :=
  Host.divf
    (Host.scatterAdd scatter_S1000x128_S100000x1_S100000x128_1_0_0_1
      (broadcastInDim S1000x128 ![] bcast_S_S1000x128 (constant S_ .f32 0x00000000#32))
      (broadcastInDim S100000x1 ![0] bcast_S100000_S100000x1_0 bt) x)
    (broadcastInDim S1000x128 ![0, 1] bcast_S1000x1_S1000x128_0_1
      (broadcastInDim S1000x1 ![0] bcast_S1000_S1000x1_0 (graphSize bt)))

/-- The head on the pooled features, as a column, its two bias rows given: `relu (p · W1 + B1) · W2 + B2`. -/
def headRow (p : Arr (F := F) S1000x128 .f32) (W1 : Arr (F := F) S128x128 .f32) (B1 : Arr (F := F) S1x128 .f32)
    (W2 : Arr (F := F) S128x1 .f32) (B2 : Arr (F := F) S1x1 .f32) : Arr (F := F) S1000x1 .f32 :=
  addf (Host.dotGeneral dot_S1000x128_S128x1_S1000x1_1_0_0_1_n_n none
      (maximumf
        (addf (Host.dotGeneral dot_S1000x128_S128x128_S1000x128_1_0_0_1_n_n none p W1)
          (broadcastInDim S1000x128 ![0, 1] bcast_S1x128_S1000x128_0_1 B1))
        (broadcastInDim S1000x128 ![] bcast_S_S1000x128 (constant S_ .f32 0x00000000#32)))
      W2)
    (broadcastInDim S1000x1 ![0, 1] bcast_S1x1_S1000x1_0_1 B2)

/-- The head, one number per graph. -/
def head (p : Arr (F := F) S1000x128 .f32) (W1 : Arr (F := F) S128x128 .f32) (b1 : Arr (F := F) S128 .f32)
    (W2 : Arr (F := F) S128x1 .f32) (b2 : Arr (F := F) S1 .f32) : Arr (F := F) S1000 .f32 :=
  shapeCast S1000
    (headRow p W1 (broadcastInDim S1x128 ![1] bcast_S128_S1x128_1 b1) W2 (broadcastInDim S1x1 ![1] bcast_S1_S1x1_1 b2))
    shapeCasts_S1000x1_S1000

/-- The whole network. -/
def G (x : Arr (F := F) S100000x128 .f32) (e : Arr (F := F) S2x1600000 .i32) (bt : Arr (F := F) S100000 .i32)
    (W0 : Arr (F := F) S128x128 .f32) (b0 : Arr (F := F) S128 .f32) (W1 : Arr (F := F) S128x128 .f32) (b1 : Arr (F := F) S128 .f32)
    (W2 : Arr (F := F) S128x128 .f32) (b2 : Arr (F := F) S128 .f32) (Wp1 : Arr (F := F) S128x128 .f32) (bp1 : Arr (F := F) S128 .f32)
    (Wp2 : Arr (F := F) S128x1 .f32) (bp2 : Arr (F := F) S1 .f32) : Arr (F := F) S1000 .f32 :=
  head (pool bt (relu
    (round (srcs e) (tgts e) (edgeWeight (srcs e) (tgts e)) (linear (relu
      (round (srcs e) (tgts e) (edgeWeight (srcs e) (tgts e)) (linear (relu
        (round (srcs e) (tgts e) (edgeWeight (srcs e) (tgts e)) (linear x W0 b0))) W1 b1))) W2 b2))))
    Wp1 bp1 Wp2 bp2

end Cert.Spec

end
-- ==== Proof.RefValue.lean ====
/-
  The reference's result is the network `Spec.G` of its arguments.

  Reading the reference's straight line at its result buffer gives the operations' functions nested over the launch
  contents of the argument buffers; that nest is, piece for piece, the term `Spec.G` is defined by.  No argument buffer
  is written by any operation, so each ends as launched.
-/
import proofs.«171263_j67095979098760_1_alg».proof.Proof.RefOps
import proofs.«171263_j67095979098760_1_alg».proof.Proof.Spec

noncomputable section

namespace Cert.ReferenceIdeal.Line

open Cert.ReferenceIdeal Cert.ReferenceIdeal.Gen Idealize.ShloMosaic Idealize.ShloMosaic.TcCoe Idealize.SL.Sem Idealize.ShloMosaic.StableHlo
open Cert.HostLine

variable {F : FTy → Type} [FloatOps F]

set_option maxRecDepth 8192 in
set_option maxHeartbeats 40000000 in
/-- The line, read at the result buffer, is the network of the launch contents of the arguments. -/
theorem result_eq (m : (ℓ : Loc nD τ sig) → Buf (Elt F) ℓ) (c : Dev nD) :
    after (ops (F := F)) (launchContents m c) (Proc.devRef .tc main_v105) = Cert.Spec.G
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12)) := by
  host_line
  rfl

set_option maxRecDepth 8192 in
set_option maxHeartbeats 40000000 in
/-- Every weakly fair execution of the reference terminates with its result at the network of the arguments, the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105) = Cert.Spec.G
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v105).trans (result_eq m c),
      (h c main_arg0).trans (by host_line <;> rfl),
      (h c main_arg1).trans (by host_line <;> rfl),
      (h c main_arg2).trans (by host_line <;> rfl),
      (h c main_arg3).trans (by host_line <;> rfl),
      (h c main_arg4).trans (by host_line <;> rfl),
      (h c main_arg5).trans (by host_line <;> rfl),
      (h c main_arg6).trans (by host_line <;> rfl),
      (h c main_arg7).trans (by host_line <;> rfl),
      (h c main_arg8).trans (by host_line <;> rfl),
      (h c main_arg9).trans (by host_line <;> rfl),
      (h c main_arg10).trans (by host_line <;> rfl),
      (h c main_arg11).trans (by host_line <;> rfl),
      (h c main_arg12).trans (by host_line <;> rfl)⟩)
    (run_all m ρ)

end Cert.ReferenceIdeal.Line

end
-- ==== Proof.KernelRun.lean ====
/-
  The kernel's run with its result named.

  @main is four TensorCore regions among stretches of host operations.  Every weakly fair execution runs the segments in
  order and terminates; at each segment boundary every unscoped buffer holds the boundary's contents — a stretch's fold
  over the contents before it, a region's arrays at what its write-backs leave, everything else as the region found it.
  The frame claim reads, from the last boundary, only that the arguments are unchanged; the value claim needs the result
  buffer too, and the same launch over the same segments gives it: it ends at the last boundary's contents of that buffer.
-/
import proofs.«171263_j67095979098760_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v91) = W15 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v91 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c)⟩)

end Cert.KernelIdeal.Whole

end
-- ==== Proof.DotSums.lean ====
/-
  The contraction sums of the matrix products, as sums over the 128 contracted positions.

  Both the TensorCore's matrix product and the host's take their dimension numbers as a record; at the exact values
  each is the sum, over the record's contraction index, of the products of the operands' entries at the record's
  operand indices.  For a product of an (M × 128) by a (128 × N) matrix that contraction index is one coordinate
  k < 128, the left operand's entry is (row, k) and the right one's (k, column); we state the sums in that form, once per
  record, so that sums over different records can be compared.
-/
import proofs.«171263_j67095979098760_1_alg».proof.Proof.Gen.KernelIdeal
import proofs.«171263_j67095979098760_1_alg».proof.Proof.Gen.ReferenceIdeal
import Idealize.ShloMosaic.Lib.ValueIdx
import Idealize.ShloMosaic.PureOps.Ideal.Laws

noncomputable section

open Idealize.ShloMosaic Idealize.ShloMosaic.ValueIdx
open scoped BigOperators

namespace Cert.DotSums

namespace BlockRows
open Cert.KernelIdeal Cert.KernelIdeal.Facts₀ Cert.KernelIdeal.Facts

theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The contraction sum of the product at output entry (r, c): the sum over k of l (r, k) · r (k, c). -/
theorem sum_eq (l : S5000x128.Idx → EReal) (r : S128x128.Idx → EReal) (i : S5000x128.Idx) :
    ∑ q : dot_S5000x128_S128x128_S5000x128_1_0_0_1_n_n.contr.Idx, l (dot_S5000x128_S128x128_S5000x128_1_0_0_1_n_n.lhsIdx i q) * r (dot_S5000x128_S128x128_S5000x128_1_0_0_1_n_n.rhsIdx i q)
      = ∑ k : Fin 128, l (ix2 ⟨(i 0).val, idx2_lt0 i⟩ k) * r (ix2 k ⟨(i 1).val, idx2_lt1 i⟩) := by
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx i ((contrEquiv1 dot_S5000x128_S128x128_S5000x128_1_0_0_1_n_n 128 rfl rfl).symm k) = ix2 ⟨(i 0).val, idx2_lt0 i⟩ k := funext fun a => Fin.ext (by
    match a with
    | ⟨0, _⟩ => exact lhs_row _ _
    | ⟨1, _⟩ => exact (lhs_col _ _).trans hk)
  have er : dot_S5000x128_S128x128_S5000x128_1_0_0_1_n_n.rhsIdx i ((contrEquiv1 dot_S5000x128_S128x128_S5000x128_1_0_0_1_n_n 128 rfl rfl).symm k) = ix2 k ⟨(i 1).val, idx2_lt1 i⟩ := funext fun a => Fin.ext (by
    match a with
    | ⟨0, _⟩ => exact (rhs_row _ _).trans hk
    | ⟨1, _⟩ => exact rhs_col _ _)
  rw [el, er]

end BlockRows

namespace AllRows
open Cert.ReferenceIdeal Cert.ReferenceIdeal.Facts₀ Cert.ReferenceIdeal.Facts

theorem lhs_row (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_col (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem rhs_row (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem rhs_col (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The contraction sum of the product at output entry (r, c): the sum over k of l (r, k) · r (k, c). -/
theorem sum_eq (l : S100000x128.Idx → EReal) (r : S128x128.Idx → EReal) (i : S100000x128.Idx) :
    ∑ q : dot_S100000x128_S128x128_S100000x128_1_0_0_1_n_n.contr.Idx, l (dot_S100000x128_S128x128_S100000x128_1_0_0_1_n_n.lhsIdx i q) * r (dot_S100000x128_S128x128_S100000x128_1_0_0_1_n_n.rhsIdx i q)
      = ∑ k : Fin 128, l (ix2 ⟨(i 0).val, idx2_lt0 i⟩ k) * r (ix2 k ⟨(i 1).val, idx2_lt1 i⟩) := by
  rw [← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx i ((contrEquiv1 dot_S100000x128_S128x128_S100000x128_1_0_0_1_n_n 128 rfl rfl).symm k) = ix2 ⟨(i 0).val, idx2_lt0 i⟩ k := funext fun a => Fin.ext (by
    match a with
    | ⟨0, _⟩ => exact lhs_row _ _
    | ⟨1, _⟩ => exact (lhs_col _ _).trans hk)
  have er : dot_S100000x128_S128x128_S100000x128_1_0_0_1_n_n.rhsIdx i ((contrEquiv1 dot_S100000x128_S128x128_S100000x128_1_0_0_1_n_n 128 rfl rfl).symm k) = ix2 k ⟨(i 1).val, idx2_lt1 i⟩ := funext fun a => Fin.ext (by
    match a with
    | ⟨0, _⟩ => exact (rhs_row _ _).trans hk
    | ⟨1, _⟩ => exact rhs_col _ _)
  rw [el, er]

end AllRows

end Cert.DotSums

end
-- ==== Proof.LinearAt.lean ====
/-
  The linear map of the specification, read at an entry.

  Entry (r, c) of `x · W` plus the bias row is the sum over k < 128 of x (r, k) · W (k, c), plus B (0, c); the
  rectification of a matrix, read at an entry, is the larger of the entry and 0.
-/
import proofs.«171263_j67095979098760_1_alg».proof.Proof.Spec
import proofs.«171263_j67095979098760_1_alg».proof.Proof.DotSums
import Idealize.ShloMosaic.Lib.Pipeline.Value

noncomputable section

namespace Cert.Spec

open Cert.ReferenceIdeal Cert.ReferenceIdeal.Facts₀ Cert.ReferenceIdeal.Facts
open Idealize.ShloMosaic Idealize.ShloMosaic.TcCoe Idealize.ShloMosaic.ValueIdx
open scoped BigOperators

/-- A bias row added to every row, read at an entry: the row's entry in that column. -/
theorem biasRows_at (B : Arr (F := Ideal) S1x128 .f32) (i : S100000x128.Idx) :
    broadcastInDim S100000x128 ![0, 1] bcast_S1x128_S100000x128_0_1 B i = B (ix2 0 ⟨(i 1).val, idx2_lt1 i⟩) :=
  broadcastInDim_apply _ bcast_S1x128_S100000x128_0_1 B i (ix2 0 ⟨(i 1).val, idx2_lt1 i⟩) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- `x · W` plus the bias row, read at an entry. -/
theorem linearRow_at (x : Arr (F := Ideal) S100000x128 .f32) (W : Arr (F := Ideal) S128x128 .f32) (B : Arr (F := Ideal) S1x128 .f32)
    (i : S100000x128.Idx) :
    linearRow x W B i
      = (∑ k : Fin 128, x (ix2 ⟨(i 0).val, idx2_lt0 i⟩ k) * W (ix2 k ⟨(i 1).val, idx2_lt1 i⟩)) + B (ix2 0 ⟨(i 1).val, idx2_lt1 i⟩) := by
  unfold linearRow
  show (Host.dotGeneral (F := Ideal) dot_S100000x128_S128x128_S100000x128_1_0_0_1_n_n none x W i : EReal)
    + broadcastInDim S100000x128 ![0, 1] bcast_S1x128_S100000x128_0_1 B i = _
  rw [biasRows_at]
  simp only [Host.dotGeneral]
  rw [Ideal.dotGeneral_apply, Cert.DotSums.AllRows.sum_eq]

/-- The rectification, read at an entry. -/
theorem relu_at (x : Arr (F := Ideal) S100000x128 .f32) (i : S100000x128.Idx) :
    relu x i = max (x i) (Ideal.ofBits .f32 0x00000000#32) := rfl

/-- A vector of 128 numbers as a 1 × 128 row, by a reshape or by a broadcast along a new leading axis: the same row. -/
theorem row_eq (b : Arr (F := Ideal) S128 .f32) (h : S128.ShapeCasts S1x128) :
    shapeCast S1x128 b h = broadcastInDim S1x128 ![1] bcast_S128_S1x128_1 b := by
  funext i
  have e1 : shapeCast S1x128 b h i = b (ix1 ⟨(i 1).val, idx2_lt1 i⟩) :=
    shapeCast_apply b h i _ (by
      have h0 : (i 0).val = 0 := by have := idx2_lt0 i; omega
      simp only [Shape.rowMajor_val_two, Shape.rowMajor_val_one]
      show (i 1).val = (i 0).val * 128 + (i 1).val
      omega)
  have e2 : broadcastInDim S1x128 ![1] bcast_S128_S1x128_1 b i = b (ix1 ⟨(i 1).val, idx2_lt1 i⟩) :=
    broadcastInDim_apply _ bcast_S128_S1x128_1 b i _ (fun a => match a with
      | ⟨0, _⟩ => by show (i 1).val = if (128 : Nat) = 1 then 0 else (i 1).val; rw [if_neg (by decide)])
  rw [e1, e2]

/-- One number as a 1 × 1 array, by a reshape or by a broadcast along a new leading axis: the same array. -/
theorem one_eq (b : Arr (F := Ideal) S1 .f32) (h : S1.ShapeCasts S1x1) :
    shapeCast S1x1 b h = broadcastInDim S1x1 ![1] bcast_S1_S1x1_1 b := by
  funext i
  have e1 : shapeCast S1x1 b h i = b (ix1 ⟨(i 1).val, idx2_lt1 i⟩) :=
    shapeCast_apply b h i _ (by
      have h0 : (i 0).val = 0 := by have := idx2_lt0 i; omega
      simp only [Shape.rowMajor_val_two, Shape.rowMajor_val_one]
      show (i 1).val = (i 0).val * 1 + (i 1).val
      omega)
  have e2 : broadcastInDim S1x1 ![1] bcast_S1_S1x1_1 b i = b (ix1 ⟨(i 1).val, idx2_lt1 i⟩) :=
    broadcastInDim_apply _ bcast_S1_S1x1_1 b i _ (fun a => match a with
      | ⟨0, _⟩ => by
        have h1 : (i 1).val = 0 := by have := idx2_lt1 i; omega
        show (i 1).val = if (1 : Nat) = 1 then 0 else (i 1).val
        rw [if_pos rfl]; exact h1)
  rw [e1, e2]

end Cert.Spec

end
-- ==== Proof.Layer0.lean ====
/-
  Layer 1's linear map on the TensorCore.

  The kernel walks the 100000 rows in 20 blocks of 5000.  At block t it loads rows 5000·t … 5000·t + 4999 of the input, the
  whole weight matrix and the bias row, multiplies (into a zero accumulator), adds the bias row to every row, and
  stores the block; the block is written back to rows 5000·t … of the output.  Entry (p, q) of what it stores is
  the sum over k of x (5000·t + p, k) · W (k, q), plus b (q): entry (5000·t + p, q) of the whole-array linear map
  of the specification.  The 20 blocks tile the output, so after the region the output array IS that linear map of
  the arrays the region found.
-/
import proofs.«171263_j67095979098760_1_alg».proof.Proof.Gen.KernelIdeal.Frame
import proofs.«171263_j67095979098760_1_alg».proof.Proof.LinearAt
import Idealize.ShloMosaic.Lib.Pipeline.Value
import Idealize.ShloMosaic.Lib.ValueLayout

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz : (![0, 0] : Fin 2 → Nat) = fun _ => 0 := funext fun a => by fin_cases a <;> rfl

/-- The body's arithmetic at an entry of the block. -/
theorem pay_at (x0 : Vec Ideal S5000x128 .f32) (x1 : Vec Ideal S128x128 .f32) (x2 : Vec Ideal S1x128 .f32) (j : S5000x128.Idx) :
    k0_pay1 (F := Ideal) x0 x1 x2 j
      = (∑ k : Fin 128, x0 (ix2 ⟨(j 0).val, idx2_lt0 j⟩ k) * x1 (ix2 k ⟨(j 1).val, idx2_lt1 j⟩))
        + x2 (ix2 0 ⟨(j 1).val, idx2_lt1 j⟩) := by
  unfold k0_pay1
  show (FloatOps.matmul (F := Ideal) dot_S5000x128_S128x128_S5000x128_1_0_0_1_n_n none x0 x1 (constant S5000x128 .f32 0x00000000#32) j : EReal)
      + broadcastTo S5000x128 (shapeCast S1x128 x2 shapeCasts_S1x128_S1x128) broadcasts_S1x128_S5000x128 j = _
  rw [Ideal.matmul_constant_zero_apply, Cert.DotSums.BlockRows.sum_eq, shapeCast_self]
  rw [broadcastTo_apply x2 broadcasts_S1x128_S5000x128 j (ix2 0 ⟨(j 1).val, idx2_lt1 j⟩) (fun a => match a with
    | ⟨0, _⟩ => by show 0 = if (1 : Nat) = 1 then 0 else _; rw [if_pos rfl]
    | ⟨1, _⟩ => by show (j 1).val = if (128 : Nat) = 1 then 0 else (j 1).val; rw [if_neg (by decide)])]

/-- Where the blocks sit, decided over the 20 points: the input's and the output's block t is at block row t, the
    weight matrix and the bias row are whole at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point t writes back is block t of the linear map of the arrays the region found. -/
theorem flushed_eq (c : Dev nD) (t : Fin cfg0.N) :
    (dat0 V c).flushed 3 t = ((cfg0.win 3).blk t).view.read (Elt Ideal)
      (Cert.Spec.linearRow (V c main_arg0) (V c main_arg3) (V c main_v31)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  have hj0 : (j 0).val < 5000 := (j 0).isLt
  have hj1 : (j 1).val < 128 := (j 1).isLt
  refine (pay_at (iblk0 V c 0 t) (iblk0 V c 1 t) (iblk0 V c 2 t) j).trans ?_
  refine Eq.trans ?_ (Cert.Spec.linearRow_at _ _ _ _).symm
  have r0 : ∀ k : Fin 128, iblk0 V c 0 t (ix2 ⟨(j 0).val, hj0⟩ k)
      = V c main_arg0 (ix2 ⟨((((cfg0.win 3).blk t).view.emb j) 0).val, idx2_lt0 _⟩ k) := by
    intro k
    show V c main_arg0 (((cfg0.win 0).blk t).view.emb (ix2 ⟨(j 0).val, hj0⟩ k)) = _
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have r1 : ∀ k : Fin 128, iblk0 V c 1 t (ix2 k ⟨(j 1).val, hj1⟩)
      = V c main_arg3 (ix2 k ⟨((((cfg0.win 3).blk t).view.emb j) 1).val, idx2_lt1 _⟩) := by
    intro k
    show V c main_arg3 (((cfg0.win 1).blk t).view.emb (ix2 k ⟨(j 1).val, hj1⟩)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have r2 : iblk0 V c 2 t (ix2 0 ⟨(j 1).val, hj1⟩)
      = V c main_v31 (ix2 0 ⟨((((cfg0.win 3).blk t).view.emb j) 1).val, idx2_lt1 _⟩) := by
    show V c main_v31 (((cfg0.win 2).blk t).view.emb (ix2 0 ⟨(j 1).val, hj1⟩)) = _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  simp only [r0, r1, r2]

/-- An entry of the output is in point t's block iff its row is among rows 5000·t … 5000·t + 4999. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v32).slice (win0_3.rect t)).set ↔ _
  rw [View.set_slice_whole, Rect.mem_set_unit]
  exact Iff.rfl

/-- Every entry of the output is in the block of the point its row falls in. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_blk]
  obtain ⟨e0, e1, e2, e3, e4, e5, e6, e7⟩ := idx_facts ⟨(i 0).val / 5000, by rw [hN]; omega⟩
  intro a
  match a with
  | ⟨0, _⟩ => show win0_3.index _ (0 : Fin 2) * 5000 ≤ (i 0).val ∧ (i 0).val < win0_3.index _ (0 : Fin 2) * 5000 + 5000; rw [e6]; show (i 0).val / 5000 * 5000 ≤ (i 0).val ∧ (i 0).val < (i 0).val / 5000 * 5000 + 5000; omega
  | ⟨1, _⟩ => show win0_3.index _ (1 : Fin 2) * 128 ≤ (i 1).val ∧ (i 1).val < win0_3.index _ (1 : Fin 2) * 128 + 128; rw [e7]; omega

/-- After the region the output array is the linear map of the arrays the region found. -/
theorem value (c : Dev nD) :
    (dat0 V c).arrAt 3 cfg0.N = Cert.Spec.linearRow (V c main_arg0) (V c main_arg3) (V c main_v31) :=
  (dat0 V c).arrAt_eq_of_cover 3 _ (fun t _ => flushed_eq V c t) cover

end Cert.KernelIdeal.Layer0

end
-- ==== Proof.ChainA.lean ====
/-
  The kernel's buffers up to the end of its first region.

  The first stretch of host operations computes, from the edge array, the two edge lists with the self-loops appended,
  each node's degree and every edge's weight — the specification's own terms — and reshapes the first bias into a
  row; it writes no argument.  The first region leaves its output at the first layer's linear map of the node features
  (module Layer0) and writes nothing else, so the edge lists, the weights and the remaining arguments stand as they were.
-/
import proofs.«171263_j67095979098760_1_alg».proof.Proof.Layer0

set_option maxRecDepth 16384
set_option maxHeartbeats 4000000

noncomputable section

namespace Cert.KernelIdeal.Chain

open Cert.KernelIdeal Cert.KernelIdeal.Gen
open Idealize.ShloMosaic Idealize.ShloMosaic.TcCoe Idealize.SL.Sem Idealize.ShloMosaic.StableHlo
open Cert.HostLine

variable (m : (ℓ : Loc nD τ sig) → Buf (Elt Ideal) ℓ) (ρ : Dev nD → PrngReg) (c : Dev nD)

theorem v5_W3 : W3 m ρ c (Proc.devRef .tc main_v5) = (Cert.Spec.srcs (m ((c : Thread nD τ).loc main_arg1))) := by
  show (StableHlo.after hostOps0_2 (StableHlo.after hostOps0_1 (StableHlo.after hostOps0 (W0 m ρ c)))) (Proc.devRef .tc main_v5) = _
  host_line <;> rfl

theorem v6_W3 : W3 m ρ c (Proc.devRef .tc main_v6) = (Cert.Spec.tgts (m ((c : Thread nD τ).loc main_arg1))) := by
  show (StableHlo.after hostOps0_2 (StableHlo.after hostOps0_1 (StableHlo.after hostOps0 (W0 m ρ c)))) (Proc.devRef .tc main_v6) = _
  host_line <;> rfl

/-- The outlined selection, over arbitrary contents before it: where the mask holds the second operand, elsewhere the third. -/
theorem where_call (Vv : Valuation τ sig (Elt Ideal)) :
    (StableHlo.after hostOps0_2 (StableHlo.after hostOps0_1 Vv)) (Proc.devRef .tc main_v30)
      = select (Vv (Proc.devRef .tc main_v27)) (Vv (Proc.devRef .tc main_v28)) (Vv (Proc.devRef .tc main_v29)) := by
  host_line <;> rfl

theorem v30_W3 : W3 m ρ c (Proc.devRef .tc main_v30) = (Cert.Spec.edgeWeight (Cert.Spec.srcs (m ((c : Thread nD τ).loc main_arg1))) (Cert.Spec.tgts (m ((c : Thread nD τ).loc main_arg1)))) := by
  show (StableHlo.after hostOps0_2 (StableHlo.after hostOps0_1 (StableHlo.after hostOps0 (W0 m ρ c)))) (Proc.devRef .tc main_v30) = _
  rw [where_call]
  have h27 : (StableHlo.after hostOps0 (W0 m ρ c)) (Proc.devRef .tc main_v27) = cmpf .ogt (Cert.Spec.degProd (Cert.Spec.srcs (m ((c : Thread nD τ).loc main_arg1))) (Cert.Spec.tgts (m ((c : Thread nD τ).loc main_arg1)))) (broadcastInDim Cert.ReferenceIdeal.S1700000 ![] Cert.ReferenceIdeal.Gen.bcast_S_S1700000 (constant (F := Ideal) Cert.ReferenceIdeal.S_ .f32 0x00000000#32)) := by
    host_line <;> rfl
  have h28 : (StableHlo.after hostOps0 (W0 m ρ c)) (Proc.devRef .tc main_v28) = Host.rsqrt (Cert.Spec.degProd (Cert.Spec.srcs (m ((c : Thread nD τ).loc main_arg1))) (Cert.Spec.tgts (m ((c : Thread nD τ).loc main_arg1)))) := by
    host_line <;> rfl
  have h29 : (StableHlo.after hostOps0 (W0 m ρ c)) (Proc.devRef .tc main_v29) = (broadcastInDim Cert.ReferenceIdeal.S1700000 ![] Cert.ReferenceIdeal.Gen.bcast_S_S1700000 (constant (F := Ideal) Cert.ReferenceIdeal.S_ .f32 0x00000000#32)) := by
    host_line <;> rfl
  rw [h27, h28, h29]
  rfl

theorem arg0_W3 : W3 m ρ c (Proc.devRef .tc main_arg0) = (m ((c : Thread nD τ).loc main_arg0)) := by
  show (StableHlo.after hostOps0_2 (StableHlo.after hostOps0_1 (StableHlo.after hostOps0 (W0 m ρ c)))) (Proc.devRef .tc main_arg0) = _
  host_line <;> rfl

theorem arg2_W3 : W3 m ρ c (Proc.devRef .tc main_arg2) = (m ((c : Thread nD τ).loc main_arg2)) := by
  show (StableHlo.after hostOps0_2 (StableHlo.after hostOps0_1 (StableHlo.after hostOps0 (W0 m ρ c)))) (Proc.devRef .tc main_arg2) = _
  host_line <;> rfl

theorem arg3_W3 : W3 m ρ c (Proc.devRef .tc main_arg3) = (m ((c : Thread nD τ).loc main_arg3)) := by
  show (StableHlo.after hostOps0_2 (StableHlo.after hostOps0_1 (StableHlo.after hostOps0 (W0 m ρ c)))) (Proc.devRef .tc main_arg3) = _
  host_line <;> rfl

theorem arg5_W3 : W3 m ρ c (Proc.devRef .tc main_arg5) = (m ((c : Thread nD τ).loc main_arg5)) := by
  show (StableHlo.after hostOps0_2 (StableHlo.after hostOps0_1 (StableHlo.after hostOps0 (W0 m ρ c)))) (Proc.devRef .tc main_arg5) = _
  host_line <;> rfl

theorem arg6_W3 : W3 m ρ c (Proc.devRef .tc main_arg6) = (m ((c : Thread nD τ).loc main_arg6)) := by
  show (StableHlo.after hostOps0_2 (StableHlo.after hostOps0_1 (StableHlo.after hostOps0 (W0 m ρ c)))) (Proc.devRef .tc main_arg6) = _
  host_line <;> rfl

theorem arg7_W3 : W3 m ρ c (Proc.devRef .tc main_arg7) = (m ((c : Thread nD τ).loc main_arg7)) := by
  show (StableHlo.after hostOps0_2 (StableHlo.after hostOps0_1 (StableHlo.after hostOps0 (W0 m ρ c)))) (Proc.devRef .tc main_arg7) = _
  host_line <;> rfl

theorem arg8_W3 : W3 m ρ c (Proc.devRef .tc main_arg8) = (m ((c : Thread nD τ).loc main_arg8)) := by
  show (StableHlo.after hostOps0_2 (StableHlo.after hostOps0_1 (StableHlo.after hostOps0 (W0 m ρ c)))) (Proc.devRef .tc main_arg8) = _
  host_line <;> rfl

theorem arg9_W3 : W3 m ρ c (Proc.devRef .tc main_arg9) = (m ((c : Thread nD τ).loc main_arg9)) := by
  show (StableHlo.after hostOps0_2 (StableHlo.after hostOps0_1 (StableHlo.after hostOps0 (W0 m ρ c)))) (Proc.devRef .tc main_arg9) = _
  host_line <;> rfl

theorem arg10_W3 : W3 m ρ c (Proc.devRef .tc main_arg10) = (m ((c : Thread nD τ).loc main_arg10)) := by
  show (StableHlo.after hostOps0_2 (StableHlo.after hostOps0_1 (StableHlo.after hostOps0 (W0 m ρ c)))) (Proc.devRef .tc main_arg10) = _
  host_line <;> rfl

theorem arg11_W3 : W3 m ρ c (Proc.devRef .tc main_arg11) = (m ((c : Thread nD τ).loc main_arg11)) := by
  show (StableHlo.after hostOps0_2 (StableHlo.after hostOps0_1 (StableHlo.after hostOps0 (W0 m ρ c)))) (Proc.devRef .tc main_arg11) = _
  host_line <;> rfl

theorem arg12_W3 : W3 m ρ c (Proc.devRef .tc main_arg12) = (m ((c : Thread nD τ).loc main_arg12)) := by
  show (StableHlo.after hostOps0_2 (StableHlo.after hostOps0_1 (StableHlo.after hostOps0 (W0 m ρ c)))) (Proc.devRef .tc main_arg12) = _
  host_line <;> rfl

theorem v31_W3 : W3 m ρ c (Proc.devRef .tc main_v31) = (broadcastInDim Cert.ReferenceIdeal.S1x128 ![1] Cert.ReferenceIdeal.Gen.bcast_S128_S1x128_1 (m ((c : Thread nD τ).loc main_arg4))) := by
  show (StableHlo.after hostOps0_2 (StableHlo.after hostOps0_1 (StableHlo.after hostOps0 (W0 m ρ c)))) (Proc.devRef .tc main_v31) = _
  host_line
  exact Cert.Spec.row_eq (m ((c : Thread nD τ).loc main_arg4)) _

theorem v5_W4 : W4 m ρ c (Proc.devRef .tc main_v5) = (Cert.Spec.srcs (m ((c : Thread nD τ).loc main_arg1))) :=
  (W4_of_ne m ρ c main_v5 (by decide)).trans (v5_W3 m ρ c)

theorem v6_W4 : W4 m ρ c (Proc.devRef .tc main_v6) = (Cert.Spec.tgts (m ((c : Thread nD τ).loc main_arg1))) :=
  (W4_of_ne m ρ c main_v6 (by decide)).trans (v6_W3 m ρ c)

theorem v30_W4 : W4 m ρ c (Proc.devRef .tc main_v30) = (Cert.Spec.edgeWeight (Cert.Spec.srcs (m ((c : Thread nD τ).loc main_arg1))) (Cert.Spec.tgts (m ((c : Thread nD τ).loc main_arg1)))) :=
  (W4_of_ne m ρ c main_v30 (by decide)).trans (v30_W3 m ρ c)

theorem arg2_W4 : W4 m ρ c (Proc.devRef .tc main_arg2) = (m ((c : Thread nD τ).loc main_arg2)) :=
  (W4_of_ne m ρ c main_arg2 (by decide)).trans (arg2_W3 m ρ c)

theorem arg5_W4 : W4 m ρ c (Proc.devRef .tc main_arg5) = (m ((c : Thread nD τ).loc main_arg5)) :=
  (W4_of_ne m ρ c main_arg5 (by decide)).trans (arg5_W3 m ρ c)

theorem arg6_W4 : W4 m ρ c (Proc.devRef .tc main_arg6) = (m ((c : Thread nD τ).loc main_arg6)) :=
  (W4_of_ne m ρ c main_arg6 (by decide)).trans (arg6_W3 m ρ c)

theorem arg7_W4 : W4 m ρ c (Proc.devRef .tc main_arg7) = (m ((c : Thread nD τ).loc main_arg7)) :=
  (W4_of_ne m ρ c main_arg7 (by decide)).trans (arg7_W3 m ρ c)

theorem arg8_W4 : W4 m ρ c (Proc.devRef .tc main_arg8) = (m ((c : Thread nD τ).loc main_arg8)) :=
  (W4_of_ne m ρ c main_arg8 (by decide)).trans (arg8_W3 m ρ c)

theorem arg9_W4 : W4 m ρ c (Proc.devRef .tc main_arg9) = (m ((c : Thread nD τ).loc main_arg9)) :=
  (W4_of_ne m ρ c main_arg9 (by decide)).trans (arg9_W3 m ρ c)

theorem arg10_W4 : W4 m ρ c (Proc.devRef .tc main_arg10) = (m ((c : Thread nD τ).loc main_arg10)) :=
  (W4_of_ne m ρ c main_arg10 (by decide)).trans (arg10_W3 m ρ c)

theorem arg11_W4 : W4 m ρ c (Proc.devRef .tc main_arg11) = (m ((c : Thread nD τ).loc main_arg11)) :=
  (W4_of_ne m ρ c main_arg11 (by decide)).trans (arg11_W3 m ρ c)

theorem arg12_W4 : W4 m ρ c (Proc.devRef .tc main_arg12) = (m ((c : Thread nD τ).loc main_arg12)) :=
  (W4_of_ne m ρ c main_arg12 (by decide)).trans (arg12_W3 m ρ c)

theorem v32_W4 : W4 m ρ c (Proc.devRef .tc main_v32) = (Cert.Spec.linear (m ((c : Thread nD τ).loc main_arg0)) (m ((c : Thread nD τ).loc main_arg3)) (m ((c : Thread nD τ).loc main_arg4))) := by
  refine (W4_arr m ρ c 3).trans ?_
  refine (Cert.KernelIdeal.Layer0.value (V3 m ρ) c).trans ?_
  show Cert.Spec.linearRow (W3 m ρ c (Proc.devRef .tc main_arg0)) (W3 m ρ c (Proc.devRef .tc main_arg3)) (W3 m ρ c (Proc.devRef .tc main_v31)) = _
  rw [arg0_W3, arg3_W3, v31_W3]
  rfl

end Cert.KernelIdeal.Chain

end
-- ==== Proof.Layer1.lean ====
/-
  Layer 2's linear map on the TensorCore.

  The kernel walks the 100000 rows in 20 blocks of 5000.  At block t it loads rows 5000·t … 5000·t + 4999 of the input, the
  whole weight matrix and the bias row, rectifies the input block, multiplies (into a zero accumulator), adds the bias row to every row, and
  stores the block; the block is written back to rows 5000·t … of the output.  Entry (p, q) of what it stores is
  the sum over k of max (x (5000·t + p, k), 0) · W (k, q), plus b (q): entry (5000·t + p, q) of the whole-array linear map
  of the specification.  The 20 blocks tile the output, so after the region the output array IS that linear map of
  the arrays the region found.
-/
import proofs.«171263_j67095979098760_1_alg».proof.Proof.Gen.KernelIdeal.Frame
import proofs.«171263_j67095979098760_1_alg».proof.Proof.LinearAt
import Idealize.ShloMosaic.Lib.Pipeline.Value
import Idealize.ShloMosaic.Lib.ValueLayout

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz : (![0, 0] : Fin 2 → Nat) = fun _ => 0 := funext fun a => by fin_cases a <;> rfl

/-- The body's arithmetic at an entry of the block. -/
theorem pay_at (x0 : Vec Ideal S5000x128 .f32) (x1 : Vec Ideal S128x128 .f32) (x2 : Vec Ideal S1x128 .f32) (j : S5000x128.Idx) :
    k1_pay1 (F := Ideal) x0 x1 x2 j
      = (∑ k : Fin 128, max (x0 (ix2 ⟨(j 0).val, idx2_lt0 j⟩ k)) (Ideal.ofBits .f32 0x00000000#32) * x1 (ix2 k ⟨(j 1).val, idx2_lt1 j⟩))
        + x2 (ix2 0 ⟨(j 1).val, idx2_lt1 j⟩) := by
  unfold k1_pay1
  show (FloatOps.matmul (F := Ideal) dot_S5000x128_S128x128_S5000x128_1_0_0_1_n_n none
        (truncf .bf16 (maximumf (shapeCast S5000x128 x0 shapeCasts_S5000x128_S5000x128) (broadcast S5000x128 (Scalar.ofBits .f32 0x00000000#32))) bitsLt_bf16_f32)
        (truncf .bf16 x1 bitsLt_bf16_f32) (constant S5000x128 .f32 0x00000000#32) j : EReal)
      + broadcastTo S5000x128 (shapeCast S1x128 x2 shapeCasts_S1x128_S1x128) broadcasts_S1x128_S5000x128 j = _
  simp only [shapeCast_self]
  rw [Ideal.matmul_constant_zero_apply, Cert.DotSums.BlockRows.sum_eq]
  rw [broadcastTo_apply x2 broadcasts_S1x128_S5000x128 j (ix2 0 ⟨(j 1).val, idx2_lt1 j⟩) (fun a => match a with
    | ⟨0, _⟩ => by show 0 = if (1 : Nat) = 1 then 0 else _; rw [if_pos rfl]
    | ⟨1, _⟩ => by show (j 1).val = if (128 : Nat) = 1 then 0 else (j 1).val; rw [if_neg (by decide)])]
  rfl

/-- Where the blocks sit, decided over the 20 points: the input's and the output's block t is at block row t, the
    weight matrix and the bias row are whole at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is block t of the linear map of the arrays the region found. -/
theorem flushed_eq (c : Dev nD) (t : Fin cfg1.N) :
    (dat1 V c).flushed 3 t = ((cfg1.win 3).blk t).view.read (Elt Ideal)
      (Cert.Spec.linearRow (Cert.Spec.relu (V c main_v45)) (V c main_arg5) (V c main_v46)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  have hj0 : (j 0).val < 5000 := (j 0).isLt
  have hj1 : (j 1).val < 128 := (j 1).isLt
  refine (pay_at (iblk1 V c 0 t) (iblk1 V c 1 t) (iblk1 V c 2 t) j).trans ?_
  refine Eq.trans ?_ (Cert.Spec.linearRow_at _ _ _ _).symm
  have r0 : ∀ k : Fin 128, iblk1 V c 0 t (ix2 ⟨(j 0).val, hj0⟩ k)
      = V c main_v45 (ix2 ⟨((((cfg1.win 3).blk t).view.emb j) 0).val, idx2_lt0 _⟩ k) := by
    intro k
    show V c main_v45 (((cfg1.win 0).blk t).view.emb (ix2 ⟨(j 0).val, hj0⟩ k)) = _
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have r1 : ∀ k : Fin 128, iblk1 V c 1 t (ix2 k ⟨(j 1).val, hj1⟩)
      = V c main_arg5 (ix2 k ⟨((((cfg1.win 3).blk t).view.emb j) 1).val, idx2_lt1 _⟩) := by
    intro k
    show V c main_arg5 (((cfg1.win 1).blk t).view.emb (ix2 k ⟨(j 1).val, hj1⟩)) = _
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_3.index t (1 : Fin 2) * 128 + 1 * (j 1).val; omega
  have r2 : iblk1 V c 2 t (ix2 0 ⟨(j 1).val, hj1⟩)
      = V c main_v46 (ix2 0 ⟨((((cfg1.win 3).blk t).view.emb j) 1).val, idx2_lt1 _⟩) := by
    show V c main_v46 (((cfg1.win 2).blk t).view.emb (ix2 0 ⟨(j 1).val, hj1⟩)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  simp only [r0, r1, r2, Cert.Spec.relu_at]

/-- An entry of the output is in point t's block iff its row is among rows 5000·t … 5000·t + 4999. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v47).slice (win1_3.rect t)).set ↔ _
  rw [View.set_slice_whole, Rect.mem_set_unit]
  exact Iff.rfl

/-- Every entry of the output is in the block of the point its row falls in. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_3 _, ?_⟩
  rw [mem_blk]
  obtain ⟨e0, e1, e2, e3, e4, e5, e6, e7⟩ := idx_facts ⟨(i 0).val / 5000, by rw [hN]; omega⟩
  intro a
  match a with
  | ⟨0, _⟩ => show win1_3.index _ (0 : Fin 2) * 5000 ≤ (i 0).val ∧ (i 0).val < win1_3.index _ (0 : Fin 2) * 5000 + 5000; rw [e6]; show (i 0).val / 5000 * 5000 ≤ (i 0).val ∧ (i 0).val < (i 0).val / 5000 * 5000 + 5000; omega
  | ⟨1, _⟩ => show win1_3.index _ (1 : Fin 2) * 128 ≤ (i 1).val ∧ (i 1).val < win1_3.index _ (1 : Fin 2) * 128 + 128; rw [e7]; omega

/-- After the region the output array is the linear map of the arrays the region found. -/
theorem value (c : Dev nD) :
    (dat1 V c).arrAt 3 cfg1.N = Cert.Spec.linearRow (Cert.Spec.relu (V c main_v45)) (V c main_arg5) (V c main_v46) :=
  (dat1 V c).arrAt_eq_of_cover 3 _ (fun t _ => flushed_eq V c t) cover

end Cert.KernelIdeal.Layer1

end
-- ==== Proof.ChainB.lean ====
/-
  The kernel's buffers up to the end of its second region.

  The second stretch of host operations is one round of message passing on the first region's output and the reshape of
  the second bias; it writes neither the edge lists, nor the weights, nor an argument.  The second region leaves its
  output at the second layer's linear map of the rectified round (module Layer1).
-/
import proofs.«171263_j67095979098760_1_alg».proof.Proof.ChainA
import proofs.«171263_j67095979098760_1_alg».proof.Proof.Layer1

set_option maxRecDepth 16384
set_option maxHeartbeats 4000000

noncomputable section

namespace Cert.KernelIdeal.Chain

open Cert.KernelIdeal Cert.KernelIdeal.Gen
open Idealize.ShloMosaic Idealize.ShloMosaic.TcCoe Idealize.SL.Sem Idealize.ShloMosaic.StableHlo
open Cert.HostLine

variable (m : (ℓ : Loc nD τ sig) → Buf (Elt Ideal) ℓ) (ρ : Dev nD → PrngReg) (c : Dev nD)

theorem v5_W5 : W5 m ρ c (Proc.devRef .tc main_v5) = (Cert.Spec.srcs (m ((c : Thread nD τ).loc main_arg1))) := by
  show (StableHlo.after hostOps1 (W4 m ρ c)) (Proc.devRef .tc main_v5) = _
  host_line
  exact v5_W4 m ρ c

theorem v6_W5 : W5 m ρ c (Proc.devRef .tc main_v6) = (Cert.Spec.tgts (m ((c : Thread nD τ).loc main_arg1))) := by
  show (StableHlo.after hostOps1 (W4 m ρ c)) (Proc.devRef .tc main_v6) = _
  host_line
  exact v6_W4 m ρ c

theorem v30_W5 : W5 m ρ c (Proc.devRef .tc main_v30) = (Cert.Spec.edgeWeight (Cert.Spec.srcs (m ((c : Thread nD τ).loc main_arg1))) (Cert.Spec.tgts (m ((c : Thread nD τ).loc main_arg1)))) := by
  show (StableHlo.after hostOps1 (W4 m ρ c)) (Proc.devRef .tc main_v30) = _
  host_line
  exact v30_W4 m ρ c

theorem arg2_W5 : W5 m ρ c (Proc.devRef .tc main_arg2) = (m ((c : Thread nD τ).loc main_arg2)) := by
  show (StableHlo.after hostOps1 (W4 m ρ c)) (Proc.devRef .tc main_arg2) = _
  host_line
  exact arg2_W4 m ρ c

theorem arg5_W5 : W5 m ρ c (Proc.devRef .tc main_arg5) = (m ((c : Thread nD τ).loc main_arg5)) := by
  show (StableHlo.after hostOps1 (W4 m ρ c)) (Proc.devRef .tc main_arg5) = _
  host_line
  exact arg5_W4 m ρ c

theorem arg7_W5 : W5 m ρ c (Proc.devRef .tc main_arg7) = (m ((c : Thread nD τ).loc main_arg7)) := by
  show (StableHlo.after hostOps1 (W4 m ρ c)) (Proc.devRef .tc main_arg7) = _
  host_line
  exact arg7_W4 m ρ c

theorem arg8_W5 : W5 m ρ c (Proc.devRef .tc main_arg8) = (m ((c : Thread nD τ).loc main_arg8)) := by
  show (StableHlo.after hostOps1 (W4 m ρ c)) (Proc.devRef .tc main_arg8) = _
  host_line
  exact arg8_W4 m ρ c

theorem arg9_W5 : W5 m ρ c (Proc.devRef .tc main_arg9) = (m ((c : Thread nD τ).loc main_arg9)) := by
  show (StableHlo.after hostOps1 (W4 m ρ c)) (Proc.devRef .tc main_arg9) = _
  host_line
  exact arg9_W4 m ρ c

theorem arg10_W5 : W5 m ρ c (Proc.devRef .tc main_arg10) = (m ((c : Thread nD τ).loc main_arg10)) := by
  show (StableHlo.after hostOps1 (W4 m ρ c)) (Proc.devRef .tc main_arg10) = _
  host_line
  exact arg10_W4 m ρ c

theorem arg11_W5 : W5 m ρ c (Proc.devRef .tc main_arg11) = (m ((c : Thread nD τ).loc main_arg11)) := by
  show (StableHlo.after hostOps1 (W4 m ρ c)) (Proc.devRef .tc main_arg11) = _
  host_line
  exact arg11_W4 m ρ c

theorem arg12_W5 : W5 m ρ c (Proc.devRef .tc main_arg12) = (m ((c : Thread nD τ).loc main_arg12)) := by
  show (StableHlo.after hostOps1 (W4 m ρ c)) (Proc.devRef .tc main_arg12) = _
  host_line
  exact arg12_W4 m ρ c

theorem v45_W5 : W5 m ρ c (Proc.devRef .tc main_v45) = (Cert.Spec.round (Cert.Spec.srcs (m ((c : Thread nD τ).loc main_arg1))) (Cert.Spec.tgts (m ((c : Thread nD τ).loc main_arg1))) (Cert.Spec.edgeWeight (Cert.Spec.srcs (m ((c : Thread nD τ).loc main_arg1))) (Cert.Spec.tgts (m ((c : Thread nD τ).loc main_arg1)))) (Cert.Spec.linear (m ((c : Thread nD τ).loc main_arg0)) (m ((c : Thread nD τ).loc main_arg3)) (m ((c : Thread nD τ).loc main_arg4)))) := by
  show (StableHlo.after hostOps1 (W4 m ρ c)) (Proc.devRef .tc main_v45) = _
  host_line
  rw [v32_W4, v5_W4, v6_W4, v30_W4]
  rfl

theorem v46_W5 : W5 m ρ c (Proc.devRef .tc main_v46) = (broadcastInDim Cert.ReferenceIdeal.S1x128 ![1] Cert.ReferenceIdeal.Gen.bcast_S128_S1x128_1 (m ((c : Thread nD τ).loc main_arg6))) := by
  show (StableHlo.after hostOps1 (W4 m ρ c)) (Proc.devRef .tc main_v46) = _
  host_line
  rw [arg6_W4]
  exact Cert.Spec.row_eq (m ((c : Thread nD τ).loc main_arg6)) _

theorem v5_W6 : W6 m ρ c (Proc.devRef .tc main_v5) = (Cert.Spec.srcs (m ((c : Thread nD τ).loc main_arg1))) :=
  (W6_of_ne m ρ c main_v5 (by decide)).trans (v5_W5 m ρ c)

theorem v6_W6 : W6 m ρ c (Proc.devRef .tc main_v6) = (Cert.Spec.tgts (m ((c : Thread nD τ).loc main_arg1))) :=
  (W6_of_ne m ρ c main_v6 (by decide)).trans (v6_W5 m ρ c)

theorem v30_W6 : W6 m ρ c (Proc.devRef .tc main_v30) = (Cert.Spec.edgeWeight (Cert.Spec.srcs (m ((c : Thread nD τ).loc main_arg1))) (Cert.Spec.tgts (m ((c : Thread nD τ).loc main_arg1)))) :=
  (W6_of_ne m ρ c main_v30 (by decide)).trans (v30_W5 m ρ c)

theorem arg2_W6 : W6 m ρ c (Proc.devRef .tc main_arg2) = (m ((c : Thread nD τ).loc main_arg2)) :=
  (W6_of_ne m ρ c main_arg2 (by decide)).trans (arg2_W5 m ρ c)

theorem arg7_W6 : W6 m ρ c (Proc.devRef .tc main_arg7) = (m ((c : Thread nD τ).loc main_arg7)) :=
  (W6_of_ne m ρ c main_arg7 (by decide)).trans (arg7_W5 m ρ c)

theorem arg8_W6 : W6 m ρ c (Proc.devRef .tc main_arg8) = (m ((c : Thread nD τ).loc main_arg8)) :=
  (W6_of_ne m ρ c main_arg8 (by decide)).trans (arg8_W5 m ρ c)

theorem arg9_W6 : W6 m ρ c (Proc.devRef .tc main_arg9) = (m ((c : Thread nD τ).loc main_arg9)) :=
  (W6_of_ne m ρ c main_arg9 (by decide)).trans (arg9_W5 m ρ c)

theorem arg10_W6 : W6 m ρ c (Proc.devRef .tc main_arg10) = (m ((c : Thread nD τ).loc main_arg10)) :=
  (W6_of_ne m ρ c main_arg10 (by decide)).trans (arg10_W5 m ρ c)

theorem arg11_W6 : W6 m ρ c (Proc.devRef .tc main_arg11) = (m ((c : Thread nD τ).loc main_arg11)) :=
  (W6_of_ne m ρ c main_arg11 (by decide)).trans (arg11_W5 m ρ c)

theorem arg12_W6 : W6 m ρ c (Proc.devRef .tc main_arg12) = (m ((c : Thread nD τ).loc main_arg12)) :=
  (W6_of_ne m ρ c main_arg12 (by decide)).trans (arg12_W5 m ρ c)

theorem v47_W6 : W6 m ρ c (Proc.devRef .tc main_v47) = (Cert.Spec.linear (Cert.Spec.relu (Cert.Spec.round (Cert.Spec.srcs (m ((c : Thread nD τ).loc main_arg1))) (Cert.Spec.tgts (m ((c : Thread nD τ).loc main_arg1))) (Cert.Spec.edgeWeight (Cert.Spec.srcs (m ((c : Thread nD τ).loc main_arg1))) (Cert.Spec.tgts (m ((c : Thread nD τ).loc main_arg1)))) (Cert.Spec.linear (m ((c : Thread nD τ).loc main_arg0)) (m ((c : Thread nD τ).loc main_arg3)) (m ((c : Thread nD τ).loc main_arg4))))) (m ((c : Thread nD τ).loc main_arg5)) (m ((c : Thread nD τ).loc main_arg6))) := by
  refine (W6_arr m ρ c 3).trans ?_
  refine (Cert.KernelIdeal.Layer1.value (V5 m ρ) c).trans ?_
  show Cert.Spec.linearRow (Cert.Spec.relu (W5 m ρ c (Proc.devRef .tc main_v45))) (W5 m ρ c (Proc.devRef .tc main_arg5)) (W5 m ρ c (Proc.devRef .tc main_v46)) = _
  rw [v45_W5, arg5_W5, v46_W5]
  rfl

end Cert.KernelIdeal.Chain

end
-- ==== Proof.Layer2.lean ====
/-
  Layer 3's linear map on the TensorCore.

  The kernel walks the 100000 rows in 20 blocks of 5000.  At block t it loads rows 5000·t … 5000·t + 4999 of the input, the
  whole weight matrix and the bias row, rectifies the input block, multiplies (into a zero accumulator), adds the bias row to every row, and
  stores the block; the block is written back to rows 5000·t … of the output.  Entry (p, q) of what it stores is
  the sum over k of max (x (5000·t + p, k), 0) · W (k, q), plus b (q): entry (5000·t + p, q) of the whole-array linear map
  of the specification.  The 20 blocks tile the output, so after the region the output array IS that linear map of
  the arrays the region found.
-/
import proofs.«171263_j67095979098760_1_alg».proof.Proof.Gen.KernelIdeal.Frame
import proofs.«171263_j67095979098760_1_alg».proof.Proof.LinearAt
import Idealize.ShloMosaic.Lib.Pipeline.Value
import Idealize.ShloMosaic.Lib.ValueLayout

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz : (![0, 0] : Fin 2 → Nat) = fun _ => 0 := funext fun a => by fin_cases a <;> rfl

/-- The body's arithmetic at an entry of the block. -/
theorem pay_at (x0 : Vec Ideal S5000x128 .f32) (x1 : Vec Ideal S128x128 .f32) (x2 : Vec Ideal S1x128 .f32) (j : S5000x128.Idx) :
    k2_pay1 (F := Ideal) x0 x1 x2 j
      = (∑ k : Fin 128, max (x0 (ix2 ⟨(j 0).val, idx2_lt0 j⟩ k)) (Ideal.ofBits .f32 0x00000000#32) * x1 (ix2 k ⟨(j 1).val, idx2_lt1 j⟩))
        + x2 (ix2 0 ⟨(j 1).val, idx2_lt1 j⟩) := by
  unfold k2_pay1
  show (FloatOps.matmul (F := Ideal) dot_S5000x128_S128x128_S5000x128_1_0_0_1_n_n none
        (truncf .bf16 (maximumf (shapeCast S5000x128 x0 shapeCasts_S5000x128_S5000x128) (broadcast S5000x128 (Scalar.ofBits .f32 0x00000000#32))) bitsLt_bf16_f32)
        (truncf .bf16 x1 bitsLt_bf16_f32) (constant S5000x128 .f32 0x00000000#32) j : EReal)
      + broadcastTo S5000x128 (shapeCast S1x128 x2 shapeCasts_S1x128_S1x128) broadcasts_S1x128_S5000x128 j = _
  simp only [shapeCast_self]
  rw [Ideal.matmul_constant_zero_apply, Cert.DotSums.BlockRows.sum_eq]
  rw [broadcastTo_apply x2 broadcasts_S1x128_S5000x128 j (ix2 0 ⟨(j 1).val, idx2_lt1 j⟩) (fun a => match a with
    | ⟨0, _⟩ => by show 0 = if (1 : Nat) = 1 then 0 else _; rw [if_pos rfl]
    | ⟨1, _⟩ => by show (j 1).val = if (128 : Nat) = 1 then 0 else (j 1).val; rw [if_neg (by decide)])]
  rfl

/-- Where the blocks sit, decided over the 20 points: the input's and the output's block t is at block row t, the
    weight matrix and the bias row are whole at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What point t writes back is block t of the linear map of the arrays the region found. -/
theorem flushed_eq (c : Dev nD) (t : Fin cfg2.N) :
    (dat2 V c).flushed 3 t = ((cfg2.win 3).blk t).view.read (Elt Ideal)
      (Cert.Spec.linearRow (Cert.Spec.relu (V c main_v60)) (V c main_arg7) (V c main_v61)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  have hj0 : (j 0).val < 5000 := (j 0).isLt
  have hj1 : (j 1).val < 128 := (j 1).isLt
  refine (pay_at (iblk2 V c 0 t) (iblk2 V c 1 t) (iblk2 V c 2 t) j).trans ?_
  refine Eq.trans ?_ (Cert.Spec.linearRow_at _ _ _ _).symm
  have r0 : ∀ k : Fin 128, iblk2 V c 0 t (ix2 ⟨(j 0).val, hj0⟩ k)
      = V c main_v60 (ix2 ⟨((((cfg2.win 3).blk t).view.emb j) 0).val, idx2_lt0 _⟩ k) := by
    intro k
    show V c main_v60 (((cfg2.win 0).blk t).view.emb (ix2 ⟨(j 0).val, hj0⟩ k)) = _
    refine congrArg _ (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have r1 : ∀ k : Fin 128, iblk2 V c 1 t (ix2 k ⟨(j 1).val, hj1⟩)
      = V c main_arg7 (ix2 k ⟨((((cfg2.win 3).blk t).view.emb j) 1).val, idx2_lt1 _⟩) := by
    intro k
    show V c main_arg7 (((cfg2.win 1).blk t).view.emb (ix2 k ⟨(j 1).val, hj1⟩)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_3.index t (1 : Fin 2) * 128 + 1 * (j 1).val; omega
  have r2 : iblk2 V c 2 t (ix2 0 ⟨(j 1).val, hj1⟩)
      = V c main_v61 (ix2 0 ⟨((((cfg2.win 3).blk t).view.emb j) 1).val, idx2_lt1 _⟩) := by
    show V c main_v61 (((cfg2.win 2).blk t).view.emb (ix2 0 ⟨(j 1).val, hj1⟩)) = _
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega
  simp only [r0, r1, r2, Cert.Spec.relu_at]

/-- An entry of the output is in point t's block iff its row is among rows 5000·t … 5000·t + 4999. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v62).slice (win2_3.rect t)).set ↔ _
  rw [View.set_slice_whole, Rect.mem_set_unit]
  exact Iff.rfl

/-- Every entry of the output is in the block of the point its row falls in. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_3 _, ?_⟩
  rw [mem_blk]
  obtain ⟨e0, e1, e2, e3, e4, e5, e6, e7⟩ := idx_facts ⟨(i 0).val / 5000, by rw [hN]; omega⟩
  intro a
  match a with
  | ⟨0, _⟩ => show win2_3.index _ (0 : Fin 2) * 5000 ≤ (i 0).val ∧ (i 0).val < win2_3.index _ (0 : Fin 2) * 5000 + 5000; rw [e6]; show (i 0).val / 5000 * 5000 ≤ (i 0).val ∧ (i 0).val < (i 0).val / 5000 * 5000 + 5000; omega
  | ⟨1, _⟩ => show win2_3.index _ (1 : Fin 2) * 128 ≤ (i 1).val ∧ (i 1).val < win2_3.index _ (1 : Fin 2) * 128 + 128; rw [e7]; omega

/-- After the region the output array is the linear map of the arrays the region found. -/
theorem value (c : Dev nD) :
    (dat2 V c).arrAt 3 cfg2.N = Cert.Spec.linearRow (Cert.Spec.relu (V c main_v60)) (V c main_arg7) (V c main_v61) :=
  (dat2 V c).arrAt_eq_of_cover 3 _ (fun t _ => flushed_eq V c t) cover

end Cert.KernelIdeal.Layer2

end
-- ==== Proof.ChainC.lean ====
/-
  The kernel's buffers up to the end of its third region: a round of message passing on the second region's output, the
  reshape of the third bias, and the third layer's linear map of the rectified round (module Layer2).
-/
import proofs.«171263_j67095979098760_1_alg».proof.Proof.ChainB
import proofs.«171263_j67095979098760_1_alg».proof.Proof.Layer2

set_option maxRecDepth 16384
set_option maxHeartbeats 4000000

noncomputable section

namespace Cert.KernelIdeal.Chain

open Cert.KernelIdeal Cert.KernelIdeal.Gen
open Idealize.ShloMosaic Idealize.ShloMosaic.TcCoe Idealize.SL.Sem Idealize.ShloMosaic.StableHlo
open Cert.HostLine

variable (m : (ℓ : Loc nD τ sig) → Buf (Elt Ideal) ℓ) (ρ : Dev nD → PrngReg) (c : Dev nD)

theorem v5_W7 : W7 m ρ c (Proc.devRef .tc main_v5) = (Cert.Spec.srcs (m ((c : Thread nD τ).loc main_arg1))) := by
  show (StableHlo.after hostOps2 (W6 m ρ c)) (Proc.devRef .tc main_v5) = _
  host_line
  exact v5_W6 m ρ c

theorem v6_W7 : W7 m ρ c (Proc.devRef .tc main_v6) = (Cert.Spec.tgts (m ((c : Thread nD τ).loc main_arg1))) := by
  show (StableHlo.after hostOps2 (W6 m ρ c)) (Proc.devRef .tc main_v6) = _
  host_line
  exact v6_W6 m ρ c

theorem v30_W7 : W7 m ρ c (Proc.devRef .tc main_v30) = (Cert.Spec.edgeWeight (Cert.Spec.srcs (m ((c : Thread nD τ).loc main_arg1))) (Cert.Spec.tgts (m ((c : Thread nD τ).loc main_arg1)))) := by
  show (StableHlo.after hostOps2 (W6 m ρ c)) (Proc.devRef .tc main_v30) = _
  host_line
  exact v30_W6 m ρ c

theorem arg2_W7 : W7 m ρ c (Proc.devRef .tc main_arg2) = (m ((c : Thread nD τ).loc main_arg2)) := by
  show (StableHlo.after hostOps2 (W6 m ρ c)) (Proc.devRef .tc main_arg2) = _
  host_line
  exact arg2_W6 m ρ c

theorem arg7_W7 : W7 m ρ c (Proc.devRef .tc main_arg7) = (m ((c : Thread nD τ).loc main_arg7)) := by
  show (StableHlo.after hostOps2 (W6 m ρ c)) (Proc.devRef .tc main_arg7) = _
  host_line
  exact arg7_W6 m ρ c

theorem arg9_W7 : W7 m ρ c (Proc.devRef .tc main_arg9) = (m ((c : Thread nD τ).loc main_arg9)) := by
  show (StableHlo.after hostOps2 (W6 m ρ c)) (Proc.devRef .tc main_arg9) = _
  host_line
  exact arg9_W6 m ρ c

theorem arg10_W7 : W7 m ρ c (Proc.devRef .tc main_arg10) = (m ((c : Thread nD τ).loc main_arg10)) := by
  show (StableHlo.after hostOps2 (W6 m ρ c)) (Proc.devRef .tc main_arg10) = _
  host_line
  exact arg10_W6 m ρ c

theorem arg11_W7 : W7 m ρ c (Proc.devRef .tc main_arg11) = (m ((c : Thread nD τ).loc main_arg11)) := by
  show (StableHlo.after hostOps2 (W6 m ρ c)) (Proc.devRef .tc main_arg11) = _
  host_line
  exact arg11_W6 m ρ c

theorem arg12_W7 : W7 m ρ c (Proc.devRef .tc main_arg12) = (m ((c : Thread nD τ).loc main_arg12)) := by
  show (StableHlo.after hostOps2 (W6 m ρ c)) (Proc.devRef .tc main_arg12) = _
  host_line
  exact arg12_W6 m ρ c

theorem v60_W7 : W7 m ρ c (Proc.devRef .tc main_v60) = (Cert.Spec.round (Cert.Spec.srcs (m ((c : Thread nD τ).loc main_arg1))) (Cert.Spec.tgts (m ((c : Thread nD τ).loc main_arg1))) (Cert.Spec.edgeWeight (Cert.Spec.srcs (m ((c : Thread nD τ).loc main_arg1))) (Cert.Spec.tgts (m ((c : Thread nD τ).loc main_arg1)))) (Cert.Spec.linear (Cert.Spec.relu (Cert.Spec.round (Cert.Spec.srcs (m ((c : Thread nD τ).loc main_arg1))) (Cert.Spec.tgts (m ((c : Thread nD τ).loc main_arg1))) (Cert.Spec.edgeWeight (Cert.Spec.srcs (m ((c : Thread nD τ).loc main_arg1))) (Cert.Spec.tgts (m ((c : Thread nD τ).loc main_arg1)))) (Cert.Spec.linear (m ((c : Thread nD τ).loc main_arg0)) (m ((c : Thread nD τ).loc main_arg3)) (m ((c : Thread nD τ).loc main_arg4))))) (m ((c : Thread nD τ).loc main_arg5)) (m ((c : Thread nD τ).loc main_arg6)))) := by
  show (StableHlo.after hostOps2 (W6 m ρ c)) (Proc.devRef .tc main_v60) = _
  host_line
  rw [v47_W6, v5_W6, v6_W6, v30_W6]
  rfl

theorem v61_W7 : W7 m ρ c (Proc.devRef .tc main_v61) = (broadcastInDim Cert.ReferenceIdeal.S1x128 ![1] Cert.ReferenceIdeal.Gen.bcast_S128_S1x128_1 (m ((c : Thread nD τ).loc main_arg8))) := by
  show (StableHlo.after hostOps2 (W6 m ρ c)) (Proc.devRef .tc main_v61) = _
  host_line
  rw [arg8_W6]
  exact Cert.Spec.row_eq (m ((c : Thread nD τ).loc main_arg8)) _

theorem v5_W8 : W8 m ρ c (Proc.devRef .tc main_v5) = (Cert.Spec.srcs (m ((c : Thread nD τ).loc main_arg1))) :=
  (W8_of_ne m ρ c main_v5 (by decide)).trans (v5_W7 m ρ c)

theorem v6_W8 : W8 m ρ c (Proc.devRef .tc main_v6) = (Cert.Spec.tgts (m ((c : Thread nD τ).loc main_arg1))) :=
  (W8_of_ne m ρ c main_v6 (by decide)).trans (v6_W7 m ρ c)

theorem v30_W8 : W8 m ρ c (Proc.devRef .tc main_v30) = (Cert.Spec.edgeWeight (Cert.Spec.srcs (m ((c : Thread nD τ).loc main_arg1))) (Cert.Spec.tgts (m ((c : Thread nD τ).loc main_arg1)))) :=
  (W8_of_ne m ρ c main_v30 (by decide)).trans (v30_W7 m ρ c)

theorem arg2_W8 : W8 m ρ c (Proc.devRef .tc main_arg2) = (m ((c : Thread nD τ).loc main_arg2)) :=
  (W8_of_ne m ρ c main_arg2 (by decide)).trans (arg2_W7 m ρ c)

theorem arg9_W8 : W8 m ρ c (Proc.devRef .tc main_arg9) = (m ((c : Thread nD τ).loc main_arg9)) :=
  (W8_of_ne m ρ c main_arg9 (by decide)).trans (arg9_W7 m ρ c)

theorem arg10_W8 : W8 m ρ c (Proc.devRef .tc main_arg10) = (m ((c : Thread nD τ).loc main_arg10)) :=
  (W8_of_ne m ρ c main_arg10 (by decide)).trans (arg10_W7 m ρ c)

theorem arg11_W8 : W8 m ρ c (Proc.devRef .tc main_arg11) = (m ((c : Thread nD τ).loc main_arg11)) :=
  (W8_of_ne m ρ c main_arg11 (by decide)).trans (arg11_W7 m ρ c)

theorem arg12_W8 : W8 m ρ c (Proc.devRef .tc main_arg12) = (m ((c : Thread nD τ).loc main_arg12)) :=
  (W8_of_ne m ρ c main_arg12 (by decide)).trans (arg12_W7 m ρ c)

theorem v62_W8 : W8 m ρ c (Proc.devRef .tc main_v62) = (Cert.Spec.linear (Cert.Spec.relu (Cert.Spec.round (Cert.Spec.srcs (m ((c : Thread nD τ).loc main_arg1))) (Cert.Spec.tgts (m ((c : Thread nD τ).loc main_arg1))) (Cert.Spec.edgeWeight (Cert.Spec.srcs (m ((c : Thread nD τ).loc main_arg1))) (Cert.Spec.tgts (m ((c : Thread nD τ).loc main_arg1)))) (Cert.Spec.linear (Cert.Spec.relu (Cert.Spec.round (Cert.Spec.srcs (m ((c : Thread nD τ).loc main_arg1))) (Cert.Spec.tgts (m ((c : Thread nD τ).loc main_arg1))) (Cert.Spec.edgeWeight (Cert.Spec.srcs (m ((c : Thread nD τ).loc main_arg1))) (Cert.Spec.tgts (m ((c : Thread nD τ).loc main_arg1)))) (Cert.Spec.linear (m ((c : Thread nD τ).loc main_arg0)) (m ((c : Thread nD τ).loc main_arg3)) (m ((c : Thread nD τ).loc main_arg4))))) (m ((c : Thread nD τ).loc main_arg5)) (m ((c : Thread nD τ).loc main_arg6))))) (m ((c : Thread nD τ).loc main_arg7)) (m ((c : Thread nD τ).loc main_arg8))) := by
  refine (W8_arr m ρ c 3).trans ?_
  refine (Cert.KernelIdeal.Layer2.value (V7 m ρ) c).trans ?_
  show Cert.Spec.linearRow (Cert.Spec.relu (W7 m ρ c (Proc.devRef .tc main_v60))) (W7 m ρ c (Proc.devRef .tc main_arg7)) (W7 m ρ c (Proc.devRef .tc main_v61)) = _
  rw [v60_W7, arg7_W7, v61_W7]
  rfl

end Cert.KernelIdeal.Chain

end
-- ==== Proof.Head.lean ====
/-
  The head on the TensorCore.

  The last kernel has a single grid point: it loads the whole pooled feature matrix (1000 × 128), both weight matrices
  and both bias rows, computes relu (p · W1 + b1) · W2 + b2 with its two products into zero accumulators, and stores the
  1000 × 1 column, which is written back whole.  A product into a zero accumulator is, at the exact values, the
  host's product of the same dimension numbers (both are the same sum), a bias row broadcast to every row is the same
  array whichever way the broadcast is spelt, and so the stored column is the specification's head of the arrays the
  region found.
-/
import proofs.«171263_j67095979098760_1_alg».proof.Proof.Gen.KernelIdeal.Frame
import proofs.«171263_j67095979098760_1_alg».proof.Proof.LinearAt
import Idealize.ShloMosaic.Lib.Pipeline.Value
import Idealize.ShloMosaic.Lib.ValueLayout

set_option maxRecDepth 16384

noncomputable section

namespace Cert.KernelIdeal.Head

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz : (![0, 0] : Fin 2 → Nat) = fun _ => 0 := funext fun a => by fin_cases a <;> rfl

/-- A matrix product into a zero accumulator is the host's product of the same dimension numbers. -/
theorem matmul_zero {sl sr so : Shape} {φ₁ φ₂ : FTy} (d : DotDims sl sr so) (l : FVec Ideal sl φ₁) (r : FVec Ideal sr φ₂) :
    FloatOps.matmul (F := Ideal) d none l r (constant so .f32 0x00000000#32) = Host.dotGeneral (F := Ideal) d none l r := by
  funext j
  rw [Ideal.matmul_constant_zero_apply]
  simp only [Host.dotGeneral]
  rw [Ideal.dotGeneral_apply]

/-- The first bias row added to every row: the two spellings of the broadcast give one array. -/
theorem bias1_eq (B : S1x128.Idx → EReal) :
    broadcastTo S1000x128 B broadcasts_S1x128_S1000x128
      = broadcastInDim Cert.ReferenceIdeal.S1000x128 ![0, 1] Cert.ReferenceIdeal.Gen.bcast_S1x128_S1000x128_0_1 B := by
  funext i
  have e1 : broadcastTo S1000x128 B broadcasts_S1x128_S1000x128 i = B (ix2 0 ⟨(i 1).val, idx2_lt1 i⟩) :=
    broadcastTo_apply B broadcasts_S1x128_S1000x128 i _ (fun a => match a with
      | ⟨0, _⟩ => by show 0 = if (1 : Nat) = 1 then 0 else _; rw [if_pos rfl]
      | ⟨1, _⟩ => by show (i 1).val = if (128 : Nat) = 1 then 0 else (i 1).val; rw [if_neg (by decide)])
  have e2 : broadcastInDim Cert.ReferenceIdeal.S1000x128 ![0, 1] Cert.ReferenceIdeal.Gen.bcast_S1x128_S1000x128_0_1 B i
      = B (ix2 0 ⟨(i 1).val, idx2_lt1 i⟩) :=
    broadcastInDim_apply _ Cert.ReferenceIdeal.Gen.bcast_S1x128_S1000x128_0_1 B i _ (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  rw [e1, e2]

/-- The second bias (one number) added to every entry of the column: again one array. -/
theorem bias2_eq (B : S1x1.Idx → EReal) :
    broadcastTo S1000x1 B broadcasts_S1x1_S1000x1
      = broadcastInDim Cert.ReferenceIdeal.S1000x1 ![0, 1] Cert.ReferenceIdeal.Gen.bcast_S1x1_S1000x1_0_1 B := by
  funext i
  have e1 : broadcastTo S1000x1 B broadcasts_S1x1_S1000x1 i = B (ix2 0 0) :=
    broadcastTo_apply B broadcasts_S1x1_S1000x1 i _ (fun a => match a with
      | ⟨0, _⟩ => by show 0 = if (1 : Nat) = 1 then 0 else _; rw [if_pos rfl]
      | ⟨1, _⟩ => by show 0 = if (1 : Nat) = 1 then 0 else _; rw [if_pos rfl])
  have e2 : broadcastInDim Cert.ReferenceIdeal.S1000x1 ![0, 1] Cert.ReferenceIdeal.Gen.bcast_S1x1_S1000x1_0_1 B i = B (ix2 0 0) :=
    broadcastInDim_apply _ Cert.ReferenceIdeal.Gen.bcast_S1x1_S1000x1_0_1 B i _ (fun a => match a with
      | ⟨0, _⟩ => by show 0 = if (1 : Nat) = 1 then 0 else (i 0).val; rw [if_pos rfl]
      | ⟨1, _⟩ => by show 0 = if (1 : Nat) = 1 then 0 else (i 1).val; rw [if_pos rfl])
  rw [e1, e2]

/-- The body's arithmetic on whole arrays is the specification's head. -/
theorem pay_eq (p : Vec Ideal S1000x128 .f32) (W1 : Vec Ideal S128x128 .f32) (B1 : Vec Ideal S1x128 .f32)
    (W2 : Vec Ideal S128x1 .f32) (B2 : Vec Ideal S1x1 .f32) :
    k3_pay1 (F := Ideal) p W1 B1 W2 B2 = Cert.Spec.headRow p W1 B1 W2 B2 := by
  unfold k3_pay1 Cert.Spec.headRow
  show addf (FloatOps.matmul (F := Ideal) dot_S1000x128_S128x1_S1000x1_1_0_0_1_n_n none
        (truncf .bf16 (maximumf
          (addf (FloatOps.matmul (F := Ideal) dot_S1000x128_S128x128_S1000x128_1_0_0_1_n_n none
              (truncf .bf16 (shapeCast S1000x128 p shapeCasts_S1000x128_S1000x128) bitsLt_bf16_f32) (truncf .bf16 W1 bitsLt_bf16_f32)
              (constant S1000x128 .f32 0x00000000#32))
            (broadcastTo S1000x128 (shapeCast S1x128 B1 shapeCasts_S1x128_S1x128) broadcasts_S1x128_S1000x128))
          (broadcast S1000x128 (Scalar.ofBits .f32 0x00000000#32))) bitsLt_bf16_f32)
        (truncf .bf16 W2 bitsLt_bf16_f32) (constant S1000x1 .f32 0x00000000#32))
      (broadcastTo S1000x1 (shapeCast S1x1 B2 shapeCasts_S1x1_S1x1) broadcasts_S1x1_S1000x1) = _
  simp only [shapeCast_self]
  rw [matmul_zero, matmul_zero, bias1_eq, bias2_eq]
  rfl

/-- Every window's one block is the whole array, at block index 0. -/
theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

variable (V : (c : Dev nD) → (b : Ref sig .tc) → Buf (Elt Ideal) ((c : Thread nD τ).loc b))

/-- What the one point writes back is the head of the arrays the region found (read through the one block, which is
    the whole column). -/
theorem flushed_eq (c : Dev nD) (t : Fin cfg3.N) :
    (dat3 V c).flushed 5 t = ((cfg3.win 5).blk t).view.read (Elt Ideal)
      (Cert.Spec.headRow (V c main_v87) (V c main_arg9) (V c main_v88) (V c main_arg11) (V c main_v89)) := by
  show (cfg3.win 5).cut (grid3.coords t) ((dat3 V c).after 5 t) = _
  rw [after3_5]
  unfold out3_5
  rw [View.canon_unit_zero hz]
  simp only [View.ld_unit_zero (S := S1000x128) hz, View.ld_unit_zero (S := S128x128) hz, View.ld_unit_zero (S := S1x128) hz,
    View.ld_unit_zero (S := S128x1) hz, View.ld_unit_zero (S := S1x1) hz]
  obtain ⟨e00, e01, e10, e11, e20, e21, e30, e31, e40, e41, e50, e51⟩ := idx_facts t
  have b0 : iblk3 V c 0 t = V c main_v87 := funext fun y => by
    show V c main_v87 (((cfg3.win 0).blk t).view.emb y) = V c main_v87 y
    refine congrArg _ (funext fun a => Fin.ext ?_)
    match a with
    | ⟨0, _⟩ => show win3_0.index t (0 : Fin 2) * 1000 + 1 * (y 0).val = (y 0).val; omega
    | ⟨1, _⟩ => show win3_0.index t (1 : Fin 2) * 128 + 1 * (y 1).val = (y 1).val; omega
  have b1 : iblk3 V c 1 t = V c main_arg9 := funext fun y => by
    show V c main_arg9 (((cfg3.win 1).blk t).view.emb y) = V c main_arg9 y
    refine congrArg _ (funext fun a => Fin.ext ?_)
    match a with
    | ⟨0, _⟩ => show win3_1.index t (0 : Fin 2) * 128 + 1 * (y 0).val = (y 0).val; omega
    | ⟨1, _⟩ => show win3_1.index t (1 : Fin 2) * 128 + 1 * (y 1).val = (y 1).val; omega
  have b2 : iblk3 V c 2 t = V c main_v88 := funext fun y => by
    show V c main_v88 (((cfg3.win 2).blk t).view.emb y) = V c main_v88 y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega
  have b3 : iblk3 V c 3 t = V c main_arg11 := funext fun y => by
    show V c main_arg11 (((cfg3.win 3).blk t).view.emb y) = V c main_arg11 y
    refine congrArg _ (funext fun a => Fin.ext ?_)
    match a with
    | ⟨0, _⟩ => show win3_3.index t (0 : Fin 2) * 128 + 1 * (y 0).val = (y 0).val; omega
    | ⟨1, _⟩ => show win3_3.index t (1 : Fin 2) * 1 + 1 * (y 1).val = (y 1).val; omega
  have b4 : iblk3 V c 4 t = V c main_v89 := funext fun y => by
    show V c main_v89 (((cfg3.win 4).blk t).view.emb y) = V c main_v89 y
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 1 + 1 * (y 1).val = (y 1).val; omega
  rw [b0, b1, b2, b3, b4, pay_eq]
  funext j
  show Cert.Spec.headRow (V c main_v87) (V c main_arg9) (V c main_v88) (V c main_arg11) (V c main_v89) j
    = Cert.Spec.headRow (V c main_v87) (V c main_arg9) (V c main_v88) (V c main_arg11) (V c main_v89) (((cfg3.win 5).blk t).view.emb j)
  refine congrArg _ (funext fun a => Fin.ext ?_)
  match a with
  | ⟨0, _⟩ => show (j 0).val = win3_5.index t (0 : Fin 2) * 1000 + 1 * (j 0).val; omega
  | ⟨1, _⟩ => show (j 1).val = win3_5.index t (1 : Fin 2) * 1 + 1 * (j 1).val; omega

/-- An entry of the column is in the one block. -/
theorem mem_blk (t : Fin cfg3.N) (i : S1000x1.Idx) :
    i ∈ ((cfg3.win 5).blk t).view.set ↔ ∀ a : Fin 2, win3_5.index t a * S1000x1.size a ≤ (i a).val ∧ (i a).val < win3_5.index t a * S1000x1.size a + S1000x1.size a := by
  show i ∈ ((View.whole main_v90).slice (win3_5.rect t)).set ↔ _
  rw [View.set_slice_whole, Rect.mem_set_unit]
  exact Iff.rfl

theorem cover (i : S1000x1.Idx) : ∃ t : Fin cfg3.N, (cfg3.win 5).flush t = true ∧ i ∈ ((cfg3.win 5).blk t).view.set := by
  have hi0 : (i 0).val < 1000 := (i 0).isLt
  have hi1 : (i 1).val < 1 := (i 1).isLt
  refine ⟨t3_0, flush3_5 _, ?_⟩
  rw [mem_blk]
  obtain ⟨e00, e01, e10, e11, e20, e21, e30, e31, e40, e41, e50, e51⟩ := idx_facts t3_0
  intro a
  match a with
  | ⟨0, _⟩ => show win3_5.index _ (0 : Fin 2) * 1000 ≤ (i 0).val ∧ (i 0).val < win3_5.index _ (0 : Fin 2) * 1000 + 1000; omega
  | ⟨1, _⟩ => show win3_5.index _ (1 : Fin 2) * 1 ≤ (i 1).val ∧ (i 1).val < win3_5.index _ (1 : Fin 2) * 1 + 1; omega

/-- After the region the output column is the head of the arrays the region found. -/
theorem value (c : Dev nD) :
    (dat3 V c).arrAt 5 cfg3.N
      = Cert.Spec.headRow (V c main_v87) (V c main_arg9) (V c main_v88) (V c main_arg11) (V c main_v89) :=
  (dat3 V c).arrAt_eq_of_cover 5 _ (fun t _ => flushed_eq V c t) cover

end Cert.KernelIdeal.Head

end
-- ==== Proof.ChainD.lean ====
/-
  The kernel's result is the network `Spec.G` of its arguments.

  The stretches of host operations before the last region are the third round of message passing, the rectification,
  the mean over each graph and the reshapes of the head's two biases; the last region leaves the head of what it finds
  (module Head), and the last operation reshapes the column into the result.  With the earlier boundaries this composes
  to the specification's term of the launch contents of the thirteen arguments.
-/
import proofs.«171263_j67095979098760_1_alg».proof.Proof.ChainC
import proofs.«171263_j67095979098760_1_alg».proof.Proof.Head

set_option maxRecDepth 16384
set_option maxHeartbeats 4000000

noncomputable section

namespace Cert.KernelIdeal.Chain

open Cert.KernelIdeal Cert.KernelIdeal.Gen
open Idealize.ShloMosaic Idealize.ShloMosaic.TcCoe Idealize.SL.Sem Idealize.ShloMosaic.StableHlo
open Cert.HostLine

variable (m : (ℓ : Loc nD τ sig) → Buf (Elt Ideal) ℓ) (ρ : Dev nD → PrngReg) (c : Dev nD)

theorem arg9_W13 : W13 m ρ c (Proc.devRef .tc main_arg9) = (m ((c : Thread nD τ).loc main_arg9)) := by
  show (StableHlo.after hostOps3_4 (StableHlo.after hostOps3_3 (StableHlo.after hostOps3_2 (StableHlo.after hostOps3_1 (StableHlo.after hostOps3 (W8 m ρ c)))))) (Proc.devRef .tc main_arg9) = _
  host_line
  exact arg9_W8 m ρ c

theorem arg11_W13 : W13 m ρ c (Proc.devRef .tc main_arg11) = (m ((c : Thread nD τ).loc main_arg11)) := by
  show (StableHlo.after hostOps3_4 (StableHlo.after hostOps3_3 (StableHlo.after hostOps3_2 (StableHlo.after hostOps3_1 (StableHlo.after hostOps3 (W8 m ρ c)))))) (Proc.devRef .tc main_arg11) = _
  host_line
  exact arg11_W8 m ρ c

theorem v88_W13 : W13 m ρ c (Proc.devRef .tc main_v88) = (broadcastInDim Cert.ReferenceIdeal.S1x128 ![1] Cert.ReferenceIdeal.Gen.bcast_S128_S1x128_1 (m ((c : Thread nD τ).loc main_arg10))) := by
  show (StableHlo.after hostOps3_4 (StableHlo.after hostOps3_3 (StableHlo.after hostOps3_2 (StableHlo.after hostOps3_1 (StableHlo.after hostOps3 (W8 m ρ c)))))) (Proc.devRef .tc main_v88) = _
  host_line
  rw [arg10_W8]
  exact Cert.Spec.row_eq (m ((c : Thread nD τ).loc main_arg10)) _

theorem v89_W13 : W13 m ρ c (Proc.devRef .tc main_v89) = (broadcastInDim Cert.ReferenceIdeal.S1x1 ![1] Cert.ReferenceIdeal.Gen.bcast_S1_S1x1_1 (m ((c : Thread nD τ).loc main_arg12))) := by
  show (StableHlo.after hostOps3_4 (StableHlo.after hostOps3_3 (StableHlo.after hostOps3_2 (StableHlo.after hostOps3_1 (StableHlo.after hostOps3 (W8 m ρ c)))))) (Proc.devRef .tc main_v89) = _
  host_line
  rw [arg12_W8]
  exact Cert.Spec.one_eq (m ((c : Thread nD τ).loc main_arg12)) _

/-! ### The last stretches of host operations, each over arbitrary contents before it -/

/-- The third round of message passing. -/
theorem round3_gen (Vv : Valuation τ sig (Elt Ideal)) :
    (StableHlo.after hostOps3 Vv) (Proc.devRef .tc main_v75)
      = Cert.Spec.round (Vv (Proc.devRef .tc main_v5)) (Vv (Proc.devRef .tc main_v6)) (Vv (Proc.devRef .tc main_v30)) (Vv (Proc.devRef .tc main_v62)) := by
  host_line <;> rfl
theorem keep3_arg2 (Vv : Valuation τ sig (Elt Ideal)) :
    (StableHlo.after hostOps3 Vv) (Proc.devRef .tc main_arg2) = Vv (Proc.devRef .tc main_arg2) := by
  host_line

/-- The outlined rectification. -/
theorem relu_gen (Vv : Valuation τ sig (Elt Ideal)) :
    (StableHlo.after hostOps3_1 Vv) (Proc.devRef .tc main_v76)
      = maximumf (Vv (Proc.devRef .tc main_v75)) (broadcastInDim S100000x128 ![] bcast_S_S100000x128 (constant (F := Ideal) S_ .f32 0x00000000#32)) := by
  host_line <;> rfl
theorem keep3_1_arg2 (Vv : Valuation τ sig (Elt Ideal)) :
    (StableHlo.after hostOps3_1 Vv) (Proc.devRef .tc main_arg2) = Vv (Proc.devRef .tc main_arg2) := by
  host_line

/-- The per-graph sums of the features and of ones, and the constant 1. -/
theorem sums_gen (Vv : Valuation τ sig (Elt Ideal)) :
    (StableHlo.after hostOps3_2 Vv) (Proc.devRef .tc main_v79)
      = Host.scatterAdd scatter_S1000x128_S100000x1_S100000x128_1_0_0_1
          (broadcastInDim S1000x128 ![] bcast_S_S1000x128 (constant (F := Ideal) S_ .f32 0x00000000#32))
          (broadcastInDim S100000x1 ![0] bcast_S100000_S100000x1_0 (Vv (Proc.devRef .tc main_arg2))) (Vv (Proc.devRef .tc main_v76)) := by
  host_line <;> rfl
theorem counts_gen (Vv : Valuation τ sig (Elt Ideal)) :
    (StableHlo.after hostOps3_2 Vv) (Proc.devRef .tc main_v83)
      = Host.scatterAdd scatter_S1000_S100000x1_S100000_n_0_0_1
          (broadcastInDim S1000 ![] bcast_S_S1000 (constant (F := Ideal) S_ .f32 0x00000000#32))
          (broadcastInDim S100000x1 ![0] bcast_S100000_S100000x1_0 (Vv (Proc.devRef .tc main_arg2)))
          (broadcastInDim S100000 ![] bcast_S_S100000 (constant (F := Ideal) S_ .f32 0x3F800000#32)) := by
  host_line <;> rfl
theorem one_gen (Vv : Valuation τ sig (Elt Ideal)) :
    (StableHlo.after hostOps3_2 Vv) (Proc.devRef .tc main_cst_18) = constant (F := Ideal) S_ .f32 0x3F800000#32 := by
  host_line <;> rfl

/-- The outlined clip: the larger of the bound and the count. -/
theorem clip_gen (Vv : Valuation τ sig (Elt Ideal)) :
    (StableHlo.after hostOps3_3 Vv) (Proc.devRef .tc main_v84)
      = maximumf (F := Ideal) (φ := .f32) (broadcastInDim S1000 ![] bcast_S_S1000 (Vv (Proc.devRef .tc main_cst_18))) (Vv (Proc.devRef .tc main_v83)) := by
  host_line <;> rfl
theorem keep3_3_v79 (Vv : Valuation τ sig (Elt Ideal)) :
    (StableHlo.after hostOps3_3 Vv) (Proc.devRef .tc main_v79) = Vv (Proc.devRef .tc main_v79) := by
  host_line

/-- The division of the sums by the clipped counts. -/
theorem mean_gen (Vv : Valuation τ sig (Elt Ideal)) :
    (StableHlo.after hostOps3_4 Vv) (Proc.devRef .tc main_v87)
      = Host.divf (F := Ideal) (φ := .f32) (Vv (Proc.devRef .tc main_v79) : (⟨S1000x128, .f32⟩ : BufTy).Contents (Elt Ideal))
          (broadcastInDim S1000x128 ![0, 1] bcast_S1000x1_S1000x128_0_1 (broadcastInDim S1000x1 ![0] bcast_S1000_S1000x1_0
            (Vv (Proc.devRef .tc main_v84) : (⟨S1000, .f32⟩ : BufTy).Contents (Elt Ideal)))) := by
  host_line <;> rfl

theorem v87_W13 : W13 m ρ c (Proc.devRef .tc main_v87) = (Cert.Spec.pool (m ((c : Thread nD τ).loc main_arg2)) (Cert.Spec.relu (Cert.Spec.round (Cert.Spec.srcs (m ((c : Thread nD τ).loc main_arg1))) (Cert.Spec.tgts (m ((c : Thread nD τ).loc main_arg1))) (Cert.Spec.edgeWeight (Cert.Spec.srcs (m ((c : Thread nD τ).loc main_arg1))) (Cert.Spec.tgts (m ((c : Thread nD τ).loc main_arg1)))) (Cert.Spec.linear (Cert.Spec.relu (Cert.Spec.round (Cert.Spec.srcs (m ((c : Thread nD τ).loc main_arg1))) (Cert.Spec.tgts (m ((c : Thread nD τ).loc main_arg1))) (Cert.Spec.edgeWeight (Cert.Spec.srcs (m ((c : Thread nD τ).loc main_arg1))) (Cert.Spec.tgts (m ((c : Thread nD τ).loc main_arg1)))) (Cert.Spec.linear (Cert.Spec.relu (Cert.Spec.round (Cert.Spec.srcs (m ((c : Thread nD τ).loc main_arg1))) (Cert.Spec.tgts (m ((c : Thread nD τ).loc main_arg1))) (Cert.Spec.edgeWeight (Cert.Spec.srcs (m ((c : Thread nD τ).loc main_arg1))) (Cert.Spec.tgts (m ((c : Thread nD τ).loc main_arg1)))) (Cert.Spec.linear (m ((c : Thread nD τ).loc main_arg0)) (m ((c : Thread nD τ).loc main_arg3)) (m ((c : Thread nD τ).loc main_arg4))))) (m ((c : Thread nD τ).loc main_arg5)) (m ((c : Thread nD τ).loc main_arg6))))) (m ((c : Thread nD τ).loc main_arg7)) (m ((c : Thread nD τ).loc main_arg8)))))) := by
  show (StableHlo.after hostOps3_4 (W12 m ρ c)) (Proc.devRef .tc main_v87) = _
  rw [mean_gen]
  show Host.divf (F := Ideal) (φ := .f32) ((StableHlo.after hostOps3_3 (W11 m ρ c)) (Proc.devRef .tc main_v79) : (⟨S1000x128, .f32⟩ : BufTy).Contents (Elt Ideal))
      (broadcastInDim S1000x128 ![0, 1] bcast_S1000x1_S1000x128_0_1 (broadcastInDim S1000x1 ![0] bcast_S1000_S1000x1_0
        ((StableHlo.after hostOps3_3 (W11 m ρ c)) (Proc.devRef .tc main_v84) : (⟨S1000, .f32⟩ : BufTy).Contents (Elt Ideal)))) = _
  rw [keep3_3_v79, clip_gen]
  show Host.divf (F := Ideal) (φ := .f32) ((StableHlo.after hostOps3_2 (W10 m ρ c)) (Proc.devRef .tc main_v79) : (⟨S1000x128, .f32⟩ : BufTy).Contents (Elt Ideal))
      (broadcastInDim S1000x128 ![0, 1] bcast_S1000x1_S1000x128_0_1 (broadcastInDim S1000x1 ![0] bcast_S1000_S1000x1_0
        (maximumf (F := Ideal) (φ := .f32) (broadcastInDim S1000 ![] bcast_S_S1000 ((StableHlo.after hostOps3_2 (W10 m ρ c)) (Proc.devRef .tc main_cst_18) : (⟨S_, .f32⟩ : BufTy).Contents (Elt Ideal)))
          ((StableHlo.after hostOps3_2 (W10 m ρ c)) (Proc.devRef .tc main_v83) : (⟨S1000, .f32⟩ : BufTy).Contents (Elt Ideal))))) = _
  rw [sums_gen, one_gen, counts_gen]
  have e2 : W10 m ρ c (Proc.devRef .tc main_arg2) = (m ((c : Thread nD τ).loc main_arg2)) := by
    show (StableHlo.after hostOps3_1 (W9 m ρ c)) (Proc.devRef .tc main_arg2) = _
    rw [keep3_1_arg2]
    show (StableHlo.after hostOps3 (W8 m ρ c)) (Proc.devRef .tc main_arg2) = _
    rw [keep3_arg2]
    exact arg2_W8 m ρ c
  have e76 : W10 m ρ c (Proc.devRef .tc main_v76) = Cert.Spec.relu (Cert.Spec.round (Cert.Spec.srcs (m ((c : Thread nD τ).loc main_arg1))) (Cert.Spec.tgts (m ((c : Thread nD τ).loc main_arg1))) (Cert.Spec.edgeWeight (Cert.Spec.srcs (m ((c : Thread nD τ).loc main_arg1))) (Cert.Spec.tgts (m ((c : Thread nD τ).loc main_arg1)))) (Cert.Spec.linear (Cert.Spec.relu (Cert.Spec.round (Cert.Spec.srcs (m ((c : Thread nD τ).loc main_arg1))) (Cert.Spec.tgts (m ((c : Thread nD τ).loc main_arg1))) (Cert.Spec.edgeWeight (Cert.Spec.srcs (m ((c : Thread nD τ).loc main_arg1))) (Cert.Spec.tgts (m ((c : Thread nD τ).loc main_arg1)))) (Cert.Spec.linear (Cert.Spec.relu (Cert.Spec.round (Cert.Spec.srcs (m ((c : Thread nD τ).loc main_arg1))) (Cert.Spec.tgts (m ((c : Thread nD τ).loc main_arg1))) (Cert.Spec.edgeWeight (Cert.Spec.srcs (m ((c : Thread nD τ).loc main_arg1))) (Cert.Spec.tgts (m ((c : Thread nD τ).loc main_arg1)))) (Cert.Spec.linear (m ((c : Thread nD τ).loc main_arg0)) (m ((c : Thread nD τ).loc main_arg3)) (m ((c : Thread nD τ).loc main_arg4))))) (m ((c : Thread nD τ).loc main_arg5)) (m ((c : Thread nD τ).loc main_arg6))))) (m ((c : Thread nD τ).loc main_arg7)) (m ((c : Thread nD τ).loc main_arg8)))) := by
    show (StableHlo.after hostOps3_1 (W9 m ρ c)) (Proc.devRef .tc main_v76) = _
    rw [relu_gen]
    show maximumf (F := Ideal) (φ := .f32) ((StableHlo.after hostOps3 (W8 m ρ c)) (Proc.devRef .tc main_v75)) _ = _
    rw [round3_gen, v5_W8, v6_W8, v30_W8, v62_W8]
    rfl
  rw [e2, e76]
  rfl

theorem v90_W14 : W14 m ρ c (Proc.devRef .tc main_v90) = (Cert.Spec.headRow (Cert.Spec.pool (m ((c : Thread nD τ).loc main_arg2)) (Cert.Spec.relu (Cert.Spec.round (Cert.Spec.srcs (m ((c : Thread nD τ).loc main_arg1))) (Cert.Spec.tgts (m ((c : Thread nD τ).loc main_arg1))) (Cert.Spec.edgeWeight (Cert.Spec.srcs (m ((c : Thread nD τ).loc main_arg1))) (Cert.Spec.tgts (m ((c : Thread nD τ).loc main_arg1)))) (Cert.Spec.linear (Cert.Spec.relu (Cert.Spec.round (Cert.Spec.srcs (m ((c : Thread nD τ).loc main_arg1))) (Cert.Spec.tgts (m ((c : Thread nD τ).loc main_arg1))) (Cert.Spec.edgeWeight (Cert.Spec.srcs (m ((c : Thread nD τ).loc main_arg1))) (Cert.Spec.tgts (m ((c : Thread nD τ).loc main_arg1)))) (Cert.Spec.linear (Cert.Spec.relu (Cert.Spec.round (Cert.Spec.srcs (m ((c : Thread nD τ).loc main_arg1))) (Cert.Spec.tgts (m ((c : Thread nD τ).loc main_arg1))) (Cert.Spec.edgeWeight (Cert.Spec.srcs (m ((c : Thread nD τ).loc main_arg1))) (Cert.Spec.tgts (m ((c : Thread nD τ).loc main_arg1)))) (Cert.Spec.linear (m ((c : Thread nD τ).loc main_arg0)) (m ((c : Thread nD τ).loc main_arg3)) (m ((c : Thread nD τ).loc main_arg4))))) (m ((c : Thread nD τ).loc main_arg5)) (m ((c : Thread nD τ).loc main_arg6))))) (m ((c : Thread nD τ).loc main_arg7)) (m ((c : Thread nD τ).loc main_arg8)))))) (m ((c : Thread nD τ).loc main_arg9)) (broadcastInDim Cert.ReferenceIdeal.S1x128 ![1] Cert.ReferenceIdeal.Gen.bcast_S128_S1x128_1 (m ((c : Thread nD τ).loc main_arg10))) (m ((c : Thread nD τ).loc main_arg11)) (broadcastInDim Cert.ReferenceIdeal.S1x1 ![1] Cert.ReferenceIdeal.Gen.bcast_S1_S1x1_1 (m ((c : Thread nD τ).loc main_arg12)))) := by
  refine (W14_arr m ρ c 5).trans ?_
  refine (Cert.KernelIdeal.Head.value (V13 m ρ) c).trans ?_
  show Cert.Spec.headRow (W13 m ρ c (Proc.devRef .tc main_v87)) (W13 m ρ c (Proc.devRef .tc main_arg9)) (W13 m ρ c (Proc.devRef .tc main_v88)) (W13 m ρ c (Proc.devRef .tc main_arg11)) (W13 m ρ c (Proc.devRef .tc main_v89)) = _
  rw [v87_W13, arg9_W13, v88_W13, arg11_W13, v89_W13]

theorem result_eq : W15 m ρ c (Proc.devRef .tc main_v91) = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show (StableHlo.after hostOps4 (W14 m ρ c)) (Proc.devRef .tc main_v91) = _
  host_line
  rw [v90_W14]
  rfl

end Cert.KernelIdeal.Chain

end
-- ==== Proof.lean ====
/-
  A three-layer graph convolution with mean pooling and a two-layer head: the Pallas kernel against its jnp reference,
  over the extended reals.

  The kernel's program computes the edge lists, degrees and edge weights on the host, runs each layer's linear map on the
  TensorCore (20 blocks of 5000 rows; layers 2 and 3 rectify their input block first), does each layer's gather, scaling
  and scatter-add on the host, pools on the host and runs the head on the TensorCore.  The reference does everything on
  the host.  At the exact values both programs end at the one term `Cert.Spec.G` of the thirteen arguments:

  * the reference, because its straight line of operations is that term (`Cert.ReferenceIdeal.Line.run`);
  * the kernel, because each region leaves its output at the specification's linear map (or head) of what it found, and
    the host stretches between the regions are the specification's own operations
    (`Cert.KernelIdeal.Chain.result_eq`, over the run `Cert.KernelIdeal.Whole.run_result`).

  A matrix product into a zero accumulator and the host's product are the same sum over the contracted index, the
  change of float format before the product is the identity at the exact values, and a sum does not depend on the order
  or the blocking of its terms; no other law is used, and none needs the inputs to be finite.  The three frames are the
  generated ones (the reference's is its run with the result dropped), and the idealization's ledger is empty.
-/
import proofs.«171263_j67095979098760_1_alg».proof.Defs
import proofs.«171263_j67095979098760_1_alg».proof.Proof.Gen.Kernel
import proofs.«171263_j67095979098760_1_alg».proof.Proof.Gen.Kernel.Skeleton
import proofs.«171263_j67095979098760_1_alg».proof.Proof.Gen.Kernel.Launch
import proofs.«171263_j67095979098760_1_alg».proof.Proof.Gen.Kernel.Points
import proofs.«171263_j67095979098760_1_alg».proof.Proof.Gen.Kernel.Frame
import proofs.«171263_j67095979098760_1_alg».proof.Proof.Gen.KernelIdeal
import proofs.«171263_j67095979098760_1_alg».proof.Proof.Gen.KernelIdeal.Skeleton
import proofs.«171263_j67095979098760_1_alg».proof.Proof.Gen.KernelIdeal.Launch
import proofs.«171263_j67095979098760_1_alg».proof.Proof.Gen.KernelIdeal.Points
import proofs.«171263_j67095979098760_1_alg».proof.Proof.Gen.KernelIdeal.Frame
import proofs.«171263_j67095979098760_1_alg».proof.Proof.Gen.ReferenceIdeal
import proofs.«171263_j67095979098760_1_alg».proof.Proof.Gen.Pre_finite_inputs
import proofs.«171263_j67095979098760_1_alg».proof.Proof.RefValue
import proofs.«171263_j67095979098760_1_alg».proof.Proof.KernelRun
import proofs.«171263_j67095979098760_1_alg».proof.Proof.ChainD
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Line.run (F := Ideal) m ρ)

/-- From memories that agree on the arguments both programs end with the network of the arguments in their result
    buffers. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Chain.result_eq m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Line.run (F := Ideal) m' ρ')
    obtain ⟨a0, a1, a2, a3, a4, a5, a6, a7, a8, a9, a10, a11, a12⟩ := hagree c
    rw [a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
